-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x32 .f32) (main_arg1 : IVec S2x1600000 32) (main_arg2 : FVec F S64x32 .f32) (main_arg3 : FVec F S64 .f32) (main_arg4 : FVec F S64x32 .f32) (main_arg5 : FVec F S32x64 .f32) (main_arg6 : FVec F S32 .f32) (main_arg7 : FVec F S32x64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1x32 : Shape := ⟨2, ![1, 32]⟩

abbrev nBuf : Space → Nat
  | .hbm => 47
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S32x64, .f32⟩
  | .hbm, ⟨26, _⟩ => ⟨S32x64, .f32⟩
  | .hbm, ⟨27, _⟩ => ⟨S64x32, .f32⟩
  | .hbm, ⟨28, _⟩ => ⟨S1x64, .f32⟩
  | .hbm, ⟨29, _⟩ => ⟨S100000x64, .f32⟩
  | .hbm, ⟨30, _⟩ => ⟨S100000x32, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S_, .f32⟩
  | .hbm, ⟨41, _⟩ => ⟨S100000x32, .f32⟩
  | .hbm, ⟨42, _⟩ => ⟨S1600000x1, .i32⟩
  | .hbm, ⟨43, _⟩ => ⟨S100000x32, .f32⟩
  | .hbm, ⟨44, _⟩ => ⟨S64x32, .f32⟩
  | .hbm, ⟨45, _⟩ => ⟨S1x32, .f32⟩
  | .hbm, ⟨46, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x64, .f32⟩
  | .local _ .vmem, ⟨5, _⟩ => ⟨S32x64, .f32⟩
  | .local _ .vmem, ⟨6, _⟩ => ⟨S1x64, .f32⟩
  | .local _ .vmem, ⟨7, _⟩ => ⟨S64x32, .f32⟩
  | .local _ .vmem, ⟨8, _⟩ => ⟨S10000x64, .f32⟩
  | .local _ .vmem, ⟨9, _⟩ => ⟨S10000x64, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x64, .f32⟩
  | .local _ .vmem, ⟨15, _⟩ => ⟨S10000x64, .f32⟩
  | .local _ .vmem, ⟨16, _⟩ => ⟨S64x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S64x32_S32x64_1_0 : S64x32.Transposes [1, 0] S32x64
  transposes_S32x64_S64x32_1_0 : S32x64.Transposes [1, 0] S64x32
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S32_S1x32 : S32.ShapeCasts S1x32
  shapeCasts_S10000x64_S10000x64 : S10000x64.ShapeCasts S10000x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x32.size a ≤ S100000x32.size a
  hwx0_7 : ∀ i : grid0.Coords, EltTy.bits .f32 = 32 ∨ (Rect.block (s := S100000x32) S10000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v13) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S10000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S64x32 : Shape := ⟨2, ![64, 32]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩

abbrev nBuf : Space → Nat
  | .hbm => 61
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S32x64, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S32x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S1x1600000, .i32⟩
  | .hbm, ⟨37, _⟩ => ⟨S1600000, .i32⟩
  | .hbm, ⟨38, _⟩ => ⟨S1x1600000, .i32⟩
  | .hbm, ⟨39, _⟩ => ⟨S1600000, .i32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S64x32, .f32⟩
  | .hbm, ⟨54, _⟩ => ⟨S100000x32, .f32⟩
  | .hbm, ⟨55, _⟩ => ⟨S1x32, .f32⟩
  | .hbm, ⟨56, _⟩ => ⟨S100000x32, .f32⟩
  | .hbm, ⟨57, _⟩ => ⟨S100000x32, .f32⟩
  | .hbm, ⟨58, _⟩ => ⟨S64x32, .f32⟩
  | .hbm, ⟨59, _⟩ => ⟨S100000x32, .f32⟩
  | .hbm, ⟨60, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_v27 : Ref sig .tc := ⟨.hbm, 41, rfl⟩
abbrev main_v28 : Ref sig .tc := ⟨.hbm, 42, rfl⟩
abbrev main_c_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
import proofs.«133607_j64707977281830_2_alg».proof.Proof.Gen.KernelIdeal.Frame
import Idealize.ShloMosaic.Lib.StableHlo.Run
import Idealize.ShloMosaic.Lib.Pipeline.Value

/-! # The run of @main with its result array named

Every weakly fair execution of @main terminates with the eight argument arrays as launched. The same run
leaves the result array `main_v31` at the contents the fold through @main's segments assigns it: what
region 1's pipeline leaves in its output window's array. This module states the run with that conjunct in
front, and names the three arrays the regions write as the pipelines' final arrays. -/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the regions write, as the pipelines' final arrays -/

/-- The result array holds what region 1's pipeline leaves in its output window (window 4). -/
theorem out_arr (c : Dev nD) :
    Gen.W4 m ρ c (Proc.devRef .tc main_v31) = (Gen.dat1 (Gen.V3 m ρ) c).arrAt 4 cfg1.N :=
  Gen.W4_arr m ρ c 4

/-- Region 0's first output array (the hidden layer) holds what its pipeline leaves in window 6. -/
theorem h_arr (c : Dev nD) :
    Gen.W2 m ρ c (Proc.devRef .tc main_v18_0) = (Gen.dat0 (Gen.V1 m ρ) c).arrAt 6 cfg0.N :=
  Gen.W2_arr m ρ c 6

/-- Region 0's second output array (the hidden layer's projection) holds what its pipeline leaves in window 7. -/
theorem t_arr (c : Dev nD) :
    Gen.W2 m ρ c (Proc.devRef .tc main_v18_1) = (Gen.dat0 (Gen.V1 m ρ) c).arrAt 7 cfg0.N :=
  Gen.W2_arr m ρ c 7

/-! ## The run -/

set_option backward.isDefEq.respectTransparency.types false in
/-- At the compiled mesh, from any memory with zero counters, every weakly fair execution of @main on the
    TensorCores terminates, nothing faulting; every final state has the result array at the contents the fold
    through @main assigns it and the argument arrays as launched. -/
theorem run_out : θ_run defs (onTc (τ := τ) (main (F := F))) ⟨m, fun _ => 0, ρ⟩ (fun r => ∀ c : Dev nD,
      r.2.mem ((c.tc : Thread nD τ).loc main_v31) = Gen.W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W4 m ρ c) s')
      isplitl [Hh] <;> iassumption)
    (hQ := fun s h c =>
      ⟨h c _ (Gen.mem_uc main_v31 (by decide)),
       (h c _ (Gen.mem_uc main_arg0 (by decide))).trans (Gen.W4_main_arg0 m ρ c),
       (h c _ (Gen.mem_uc main_arg1 (by decide))).trans (Gen.W4_main_arg1 m ρ c),
       (h c _ (Gen.mem_uc main_arg2 (by decide))).trans (Gen.W4_main_arg2 m ρ c),
       (h c _ (Gen.mem_uc main_arg3 (by decide))).trans (Gen.W4_main_arg3 m ρ c),
       (h c _ (Gen.mem_uc main_arg4 (by decide))).trans (Gen.W4_main_arg4 m ρ c),
       (h c _ (Gen.mem_uc main_arg5 (by decide))).trans (Gen.W4_main_arg5 m ρ c),
       (h c _ (Gen.mem_uc main_arg6 (by decide))).trans (Gen.W4_main_arg6 m ρ c),
       (h c _ (Gen.mem_uc main_arg7 (by decide))).trans (Gen.W4_main_arg7 m ρ c)⟩)

end Cert.KernelIdeal.Run

end
-- ==== Proof.KernelHost.lean ====
import proofs.«133607_j64707977281830_2_alg».proof.Proof.Gen.KernelIdeal.Frame
import Idealize.ShloMosaic.Lib.StableHlo.Run
import Idealize.ShloMosaic.Lib.Pipeline.Value

/-! # What the regions' input arrays hold when the regions are entered

Before each region @main prepares its operands on the host: the edge list's two rows become a column of
source nodes (a negative index wrapped once by the node count) and a column of destination nodes; the rows
of a node table at the sources are gathered and added up at the destinations (each node's sum over its
incoming edges); the weight matrices are transposed and the biases reshaped to one row. This module names
those terms and proves that the arrays the regions' input windows read hold them, as functions of the
launch memory (region 0) and of region 0's second output (region 1). -/

set_option maxRecDepth 16384

noncomputable section

namespace Cert.KernelIdeal.Run

open Idealize.ShloMosaic Idealize.ShloMosaic.TcCoe Idealize.ShloMosaic.Tactic
open Idealize.ShloMosaic.StableHlo (after_cons after_nil)
open Idealize.SL.Sem

variable {F : FTy → Type} [FloatOps F]

/-! ## The host terms -/

/-- The edges' source nodes: row 0 of the edge list, as a vector. -/
def srcIdx (a1 : (⟨S2x1600000, .i32⟩ : BufTy).Contents (Elt F)) : (⟨S1600000, .i32⟩ : BufTy).Contents (Elt F) :=
  shapeCast S1600000 (extractStridedSlice S1x1600000 ![0, 0] a1 Gen.slices_S2x1600000_S1x1600000_0_0) Gen.shapeCasts_S1x1600000_S1600000

/-- The edges' destination nodes: row 1 of the edge list, as a vector. -/
def dstIdx (a1 : (⟨S2x1600000, .i32⟩ : BufTy).Contents (Elt F)) : (⟨S1600000, .i32⟩ : BufTy).Contents (Elt F) :=
  shapeCast S1600000 (extractStridedSlice S1x1600000 ![1, 0] a1 Gen.slices_S2x1600000_S1x1600000_1_0) Gen.shapeCasts_S1x1600000_S1600000

/-- The source nodes as a column, a negative index wrapped once by the node count `100000`. -/
def srcCol (a1 : (⟨S2x1600000, .i32⟩ : BufTy).Contents (Elt F)) : (⟨S1600000x1, .i32⟩ : BufTy).Contents (Elt F) :=
  broadcastInDim S1600000x1 ![0] Gen.bcast_S1600000_S1600000x1_0
    (select (cmpi .slt (srcIdx (F := F) a1) (broadcastInDim S1600000 ![] Gen.bcast_S_S1600000 (constantI S_ 32 0#32)))
      (addi (srcIdx (F := F) a1) (broadcastInDim S1600000 ![] Gen.bcast_S_S1600000 (constantI S_ 32 100000#32)))
      (srcIdx (F := F) a1))

/-- The destination nodes as a column. -/
def dstCol (a1 : (⟨S2x1600000, .i32⟩ : BufTy).Contents (Elt F)) : (⟨S1600000x1, .i32⟩ : BufTy).Contents (Elt F) :=
  broadcastInDim S1600000x1 ![0] Gen.bcast_S1600000_S1600000x1_0 (dstIdx (F := F) a1)

/-- Each node's sum of the rows of `X` at the sources of its incoming edges: the rows gathered per edge,
    added up at the edges' destinations from zero. -/
def nbrSumOf (X : (⟨S100000x32, .f32⟩ : BufTy).Contents (Elt F)) (a1 : (⟨S2x1600000, .i32⟩ : BufTy).Contents (Elt F)) :
    (⟨S100000x32, .f32⟩ : BufTy).Contents (Elt F) :=
  Host.scatterAdd scatter_S100000x32_S1600000x1_S1600000x32_1_0_0_1
    (broadcastInDim S100000x32 ![] Gen.bcast_S_S100000x32 (constant (F := F) S_ .f32 0x00000000#32))
    (dstCol (F := F) a1)
    (Host.gather gather_S100000x32_S1600000x1_S1600000x32_1_0_n_n_0_1_132 X (srcCol (F := F) a1))

variable (m : (ℓ : Loc nD τ sig) → Buf (Elt F) ℓ) (ρ : Dev nD → PrngReg)

/-! ## Region 0's entry: the arrays after the first stretch of host operations -/

theorem V1_v1 (c : Dev nD) : Gen.V1 m ρ c main_v1 = srcIdx (F := F) (m ((c.tc : Thread nD τ).loc main_arg1)) := by
  have e : (Gen.V1 m ρ c main_v1 : S1600000.Idx → Elt F .i32) = srcIdx (F := F) (m ((c.tc : Thread nD τ).loc main_arg1)) := by
    dsimp only [Gen.V1, Gen.W1, Gen.hostOps0]; after_results; rfl
  exact e

/-- Region 0's entry contents at a host-written or argument array, as a term over the launch memory:
    the first stretch's fold read at the array, each operation's result rewritten to its function's value. -/
theorem V1_v3 (c : Dev nD) : Gen.V1 m ρ c main_v3 = dstIdx (F := F) (m ((c.tc : Thread nD τ).loc main_arg1)) := by
  have e : (Gen.V1 m ρ c main_v3 : S1600000.Idx → Elt F .i32) = dstIdx (F := F) (m ((c.tc : Thread nD τ).loc main_arg1)) := by
    dsimp only [Gen.V1, Gen.W1, Gen.hostOps0]; after_results; rfl
  exact e

theorem V1_v9 (c : Dev nD) : Gen.V1 m ρ c main_v9 = srcCol (F := F) (m ((c.tc : Thread nD τ).loc main_arg1)) := by
  have e : (Gen.V1 m ρ c main_v9 : S1600000x1.Idx → Elt F .i32) = srcCol (F := F) (m ((c.tc : Thread nD τ).loc main_arg1)) := by
    dsimp only [Gen.V1, Gen.W1, Gen.hostOps0]; after_results; rfl
  exact e

theorem V1_v12 (c : Dev nD) : Gen.V1 m ρ c main_v12 = dstCol (F := F) (m ((c.tc : Thread nD τ).loc main_arg1)) := by
  have e : (Gen.V1 m ρ c main_v12 : S1600000x1.Idx → Elt F .i32) = dstCol (F := F) (m ((c.tc : Thread nD τ).loc main_arg1)) := by
    dsimp only [Gen.V1, Gen.W1, Gen.hostOps0]; after_results; rfl
  exact e

/-- Region 0's first input array: each node's sum of the input rows over its incoming edges. -/
theorem V1_v13 (c : Dev nD) : Gen.V1 m ρ c main_v13
    = nbrSumOf (F := F) (m ((c.tc : Thread nD τ).loc main_arg0)) (m ((c.tc : Thread nD τ).loc main_arg1)) := by
  have e : (Gen.V1 m ρ c main_v13 : S100000x32.Idx → Elt F .f32)
      = nbrSumOf (F := F) (m ((c.tc : Thread nD τ).loc main_arg0)) (m ((c.tc : Thread nD τ).loc main_arg1)) := by
    dsimp only [Gen.V1, Gen.W1, Gen.hostOps0]; after_results; rfl
  exact e

/-- Region 0's second input array is the input table as launched. -/
theorem V1_arg0 (c : Dev nD) : Gen.V1 m ρ c main_arg0 = m ((c.tc : Thread nD τ).loc main_arg0) := by
  have e : (Gen.V1 m ρ c main_arg0 : S100000x32.Idx → Elt F .f32) = m ((c.tc : Thread nD τ).loc main_arg0) := by
    dsimp only [Gen.V1, Gen.W1, Gen.hostOps0]; after_results
  exact e

/-- The first layer's two weight matrices, transposed. -/
theorem V1_v14 (c : Dev nD) : Gen.V1 m ρ c main_v14
    = transpose S32x64 [1, 0] (m ((c.tc : Thread nD τ).loc main_arg2)) Gen.transposes_S64x32_S32x64_1_0 := by
  have e : (Gen.V1 m ρ c main_v14 : S32x64.Idx → Elt F .f32)
      = transpose S32x64 [1, 0] (m ((c.tc : Thread nD τ).loc main_arg2)) Gen.transposes_S64x32_S32x64_1_0 := by
    dsimp only [Gen.V1, Gen.W1, Gen.hostOps0]; after_results
  exact e

theorem V1_v15 (c : Dev nD) : Gen.V1 m ρ c main_v15
    = transpose S32x64 [1, 0] (m ((c.tc : Thread nD τ).loc main_arg4)) Gen.transposes_S64x32_S32x64_1_0 := by
  have e : (Gen.V1 m ρ c main_v15 : S32x64.Idx → Elt F .f32)
      = transpose S32x64 [1, 0] (m ((c.tc : Thread nD τ).loc main_arg4)) Gen.transposes_S64x32_S32x64_1_0 := by
    dsimp only [Gen.V1, Gen.W1, Gen.hostOps0]; after_results
  exact e

/-- The projection's weight matrix, transposed. -/
theorem V1_v16 (c : Dev nD) : Gen.V1 m ρ c main_v16
    = transpose S64x32 [1, 0] (m ((c.tc : Thread nD τ).loc main_arg5)) Gen.transposes_S32x64_S64x32_1_0 := by
  have e : (Gen.V1 m ρ c main_v16 : S64x32.Idx → Elt F .f32)
      = transpose S64x32 [1, 0] (m ((c.tc : Thread nD τ).loc main_arg5)) Gen.transposes_S32x64_S64x32_1_0 := by
    dsimp only [Gen.V1, Gen.W1, Gen.hostOps0]; after_results
  exact e

/-- The first layer's bias as one row. -/
theorem V1_v17 (c : Dev nD) : Gen.V1 m ρ c main_v17
    = shapeCast S1x64 (m ((c.tc : Thread nD τ).loc main_arg3)) Gen.shapeCasts_S64_S1x64 := by
  have e : (Gen.V1 m ρ c main_v17 : S1x64.Idx → Elt F .f32)
      = shapeCast S1x64 (m ((c.tc : Thread nD τ).loc main_arg3)) Gen.shapeCasts_S64_S1x64 := by
    dsimp only [Gen.V1, Gen.W1, Gen.hostOps0]; after_results; rfl
  exact e

/-! ## Region 1's entry: the arrays after the second stretch of host operations

The second stretch recomputes the wrapped source column and the destination column from the edge vectors the
first stretch wrote, which region 0 does not touch, and gathers from region 0's second output. -/

/-- Region 0 leaves the edge vectors as the first stretch wrote them. -/
theorem W2_v1 (c : Dev nD) : Gen.W2 m ρ c (Proc.devRef .tc main_v1) = srcIdx (F := F) (m ((c.tc : Thread nD τ).loc main_arg1)) :=
  (Gen.W2_of_ne m ρ c main_v1 (by decide)).trans (V1_v1 m ρ c)

theorem W2_v3 (c : Dev nD) : Gen.W2 m ρ c (Proc.devRef .tc main_v3) = dstIdx (F := F) (m ((c.tc : Thread nD τ).loc main_arg1)) :=
  (Gen.W2_of_ne m ρ c main_v3 (by decide)).trans (V1_v3 m ρ c)

/-- Region 0 leaves the second layer's parameters as launched: neither it nor the first stretch writes them. -/
theorem W2_arg6 (c : Dev nD) : Gen.W2 m ρ c (Proc.devRef .tc main_arg6) = m ((c.tc : Thread nD τ).loc main_arg6) :=
  (Gen.W2_of_ne m ρ c main_arg6 (by decide)).trans (by
    have e : (Gen.V1 m ρ c main_arg6 : S32.Idx → Elt F .f32) = m ((c.tc : Thread nD τ).loc main_arg6) := by
      dsimp only [Gen.V1, Gen.W1, Gen.hostOps0]; after_results
    exact e)

theorem W2_arg7 (c : Dev nD) : Gen.W2 m ρ c (Proc.devRef .tc main_arg7) = m ((c.tc : Thread nD τ).loc main_arg7) :=
  (Gen.W2_of_ne m ρ c main_arg7 (by decide)).trans (by
    have e : (Gen.V1 m ρ c main_arg7 : S32x64.Idx → Elt F .f32) = m ((c.tc : Thread nD τ).loc main_arg7) := by
      dsimp only [Gen.V1, Gen.W1, Gen.hostOps0]; after_results
    exact e)

/-- Region 1's second input array is region 0's first output: no operation of the second stretch writes it. -/
theorem V3_v18_0 (c : Dev nD) : Gen.V3 m ρ c main_v18_0 = Gen.W2 m ρ c (Proc.devRef .tc main_v18_0) := by
  have e : (Gen.V3 m ρ c main_v18_0 : S100000x64.Idx → Elt F .f32) = Gen.W2 m ρ c (Proc.devRef .tc main_v18_0) := by
    dsimp only [Gen.V3, Gen.W3, Gen.hostOps1]; after_results
  exact e

/-- Region 1's first input array: each node's sum of region 0's second output over its incoming edges. -/
theorem V3_v28 (c : Dev nD) : Gen.V3 m ρ c main_v28
    = nbrSumOf (F := F) (Gen.W2 m ρ c (Proc.devRef .tc main_v18_1)) (m ((c.tc : Thread nD τ).loc main_arg1)) := by
  have e : (Gen.V3 m ρ c main_v28 : S100000x32.Idx → Elt F .f32)
      = nbrSumOf (F := F) (Gen.W2 m ρ c (Proc.devRef .tc main_v18_1)) (m ((c.tc : Thread nD τ).loc main_arg1)) := by
    dsimp only [Gen.V3, Gen.W3, Gen.hostOps1]; after_results
    rw [W2_v1 m ρ c, W2_v3 m ρ c]
    rfl
  exact e

/-- The second layer's weight matrix, transposed. -/
theorem V3_v29 (c : Dev nD) : Gen.V3 m ρ c main_v29
    = transpose S64x32 [1, 0] (m ((c.tc : Thread nD τ).loc main_arg7)) Gen.transposes_S32x64_S64x32_1_0 := by
  have e : (Gen.V3 m ρ c main_v29 : S64x32.Idx → Elt F .f32)
      = transpose S64x32 [1, 0] (m ((c.tc : Thread nD τ).loc main_arg7)) Gen.transposes_S32x64_S64x32_1_0 := by
    dsimp only [Gen.V3, Gen.W3, Gen.hostOps1]; after_results
    rw [W2_arg7 m ρ c]
  exact e

/-- The second layer's bias as one row. -/
theorem V3_v30 (c : Dev nD) : Gen.V3 m ρ c main_v30
    = shapeCast S1x32 (m ((c.tc : Thread nD τ).loc main_arg6)) Gen.shapeCasts_S32_S1x32 := by
  have e : (Gen.V3 m ρ c main_v30 : S1x32.Idx → Elt F .f32)
      = shapeCast S1x32 (m ((c.tc : Thread nD τ).loc main_arg6)) Gen.shapeCasts_S32_S1x32 := by
    dsimp only [Gen.V3, Gen.W3, Gen.hostOps1]; after_results
    rw [W2_arg6 m ρ c]
    rfl
  exact e

end Cert.KernelIdeal.Run

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Region0.lean ====
/-
  What the first kernel leaves in its two output arrays, for any contents `V` of the buffers at its entry.

  The grid has 10 points; point `t` works on rows `10000·t … 10000·t + 9999`: it reads that band of the neighbour sum
  `[100000, 32]` and of the node features `[100000, 32]`, the two weight tables `[32, 64]`, the bias row `[1, 64]` and the second
  layer's weight table `[64, 32]`, and writes the same band of the hidden features `[100000, 64]` and of their projection
  `[100000, 32]`. Entry `(p, j)` of the hidden band is `max (((∑ k, agg (p, k) · wl (k, j)) + ∑ k, x (p, k) · wr (k, j)) + b (0, j)) 0`
  and entry `(p, o)` of the projected band is `∑ j, hidden (p, j) · wo (j, o)`; the bands tile the rows, so the two arrays end
  holding those functions of the entry contents at every index.
-/
import proofs.«133607_j64707977281830_2_alg».proof.Proof.Gen.KernelIdeal.Frame
import proofs.«133607_j64707977281830_2_alg».proof.Proof.LibDense
import Idealize.ShloMosaic.Lib.Pipeline.Value
import Idealize.ShloMosaic.Lib.ValueIdx
import Idealize.ShloMosaic.PureOps.Ideal.Laws

noncomputable section

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)

/-- The hidden features, entry by entry: the rectified sum of the two projections and the bias. -/
def hid (agg x : S100000x32.Idx → EReal) (wl wr : S32x64.Idx → EReal) (b : S1x64.Idx → EReal) : S100000x64.Idx → EReal :=
  fun i => max (((∑ k : Fin 32, agg (ix2 (i 0) k) * wl (ix2 k (i 1))) + ∑ k : Fin 32, x (ix2 (i 0) k) * wr (ix2 k (i 1)))
    + b (ix2 0 (i 1))) 0

/-- The hidden features projected by the second layer's left weights, entry by entry. -/
def proj (agg x : S100000x32.Idx → EReal) (wl wr : S32x64.Idx → EReal) (b : S1x64.Idx → EReal) (wo : S64x32.Idx → EReal) :
    S100000x32.Idx → EReal :=
  fun i => ∑ j : Fin 64, hid agg x wl wr b (ix2 (i 0) j) * wo (ix2 j (i 1))

/-- The first store's arithmetic at entry `(p, j)` of a band, when the band's rows are the rows `R` of the arrays. -/
theorem payload1_at (x0 x1 : Vec Ideal S10000x32 .f32) (x2 x3 : Vec Ideal S32x64 .f32) (x4 : Vec Ideal S1x64 .f32)
    (agg x : S100000x32.Idx → EReal) (wl wr : S32x64.Idx → EReal) (b : S1x64.Idx → EReal)
    (p : Fin 10000) (j : Fin 64) (R : Fin 100000)
    (h0 : ∀ k : Fin 32, x0 (ix2 p k) = agg (ix2 R k)) (h1 : ∀ k : Fin 32, x1 (ix2 p k) = x (ix2 R k))
    (h2 : ∀ k : Fin 32, x2 (ix2 k j) = wl (ix2 k j)) (h3 : ∀ k : Fin 32, x3 (ix2 k j) = wr (ix2 k j))
    (h4 : x4 (ix2 0 j) = b (ix2 0 j)) :
    k0_pay1 x0 x1 x2 x3 x4 (ix2 p j) = hid agg x wl wr b (ix2 R j) := by
  unfold k0_pay1 hid
  show max ((FloatOps.matmul (φ₁ := .f32) (φ₂ := .f32) dot_S10000x32_S32x64_S10000x64_1_0_0_1_n_n (some .fp32)
            (shapeCast S10000x32 x0 shapeCasts_S10000x32_S10000x32) (shapeCast S32x64 x2 shapeCasts_S32x64_S32x64)
            (constant (F := Ideal) S10000x64 .f32 0x00000000#32) (ix2 p j)
        + FloatOps.matmul (φ₁ := .f32) (φ₂ := .f32) dot_S10000x32_S32x64_S10000x64_1_0_0_1_n_n (some .fp32) x1
            (shapeCast S32x64 x3 shapeCasts_S32x64_S32x64) (constant (F := Ideal) S10000x64 .f32 0x00000000#32) (ix2 p j))
      + broadcastTo S10000x64 (shapeCast S1x64 x4 shapeCasts_S1x64_S1x64) broadcasts_S1x64_S10000x64 (ix2 p j))
      (Ideal.ofBits .f32 0x00000000#32) = _
  rw [shapeCast_self, shapeCast_self, shapeCast_self, shapeCast_self, Ideal.ofBits_zero_f32]
  have hm0 : FloatOps.matmul (φ₁ := .f32) (φ₂ := .f32) dot_S10000x32_S32x64_S10000x64_1_0_0_1_n_n (some .fp32) x0 x2
      (constant (F := Ideal) S10000x64 .f32 0x00000000#32) (ix2 p j) = ∑ k : Fin 32, x0 (ix2 p k) * x2 (ix2 k j) :=
    (Ideal.matmul_constant_zero_apply (φ₁ := .f32) (φ₂ := .f32) dot_S10000x32_S32x64_S10000x64_1_0_0_1_n_n (some .fp32) x0 x2 (ix2 p j)).trans
      (Cert.LibDense.plain_sum 10000 32 64 x0 x2 (ix2 p j))
  have hm1 : FloatOps.matmul (φ₁ := .f32) (φ₂ := .f32) dot_S10000x32_S32x64_S10000x64_1_0_0_1_n_n (some .fp32) x1 x3
      (constant (F := Ideal) S10000x64 .f32 0x00000000#32) (ix2 p j) = ∑ k : Fin 32, x1 (ix2 p k) * x3 (ix2 k j) :=
    (Ideal.matmul_constant_zero_apply (φ₁ := .f32) (φ₂ := .f32) dot_S10000x32_S32x64_S10000x64_1_0_0_1_n_n (some .fp32) x1 x3 (ix2 p j)).trans
      (Cert.LibDense.plain_sum 10000 32 64 x1 x3 (ix2 p j))
  have hb : broadcastTo S10000x64 x4 broadcasts_S1x64_S10000x64 (ix2 p j) = x4 (ix2 0 j) :=
    broadcastTo_apply x4 broadcasts_S1x64_S10000x64 (ix2 p j) (ix2 0 j) (fun a => by
      match a with
      | ⟨0, _⟩ => rfl
      | ⟨1, _⟩ => rfl)
  rw [hm0, hm1, hb, h4]
  exact congrArg₂ (fun s s' => max ((s + s') + b (ix2 0 j)) 0)
    (Finset.sum_congr rfl fun k _ => by rw [h0 k, h2 k]) (Finset.sum_congr rfl fun k _ => by rw [h1 k, h3 k])

/-- The second store's arithmetic at entry `(p, o)` of a band: the hidden band's row projected. -/
theorem payload2_at (x0 x1 : Vec Ideal S10000x32 .f32) (x2 x3 : Vec Ideal S32x64 .f32) (x4 : Vec Ideal S1x64 .f32)
    (x5 : Vec Ideal S64x32 .f32)
    (agg x : S100000x32.Idx → EReal) (wl wr : S32x64.Idx → EReal) (b : S1x64.Idx → EReal) (wo : S64x32.Idx → EReal)
    (p : Fin 10000) (o : Fin 32) (R : Fin 100000)
    (h0 : ∀ k : Fin 32, x0 (ix2 p k) = agg (ix2 R k)) (h1 : ∀ k : Fin 32, x1 (ix2 p k) = x (ix2 R k))
    (h2 : ∀ (k : Fin 32) (j : Fin 64), x2 (ix2 k j) = wl (ix2 k j)) (h3 : ∀ (k : Fin 32) (j : Fin 64), x3 (ix2 k j) = wr (ix2 k j))
    (h4 : ∀ j : Fin 64, x4 (ix2 0 j) = b (ix2 0 j)) (h5 : ∀ j : Fin 64, x5 (ix2 j o) = wo (ix2 j o)) :
    k0_pay2 x0 x1 x2 x3 x4 x5 (ix2 p o) = proj agg x wl wr b wo (ix2 R o) := by
  unfold k0_pay2 proj
  show FloatOps.matmul (φ₁ := .f32) (φ₂ := .f32) dot_S10000x64_S64x32_S10000x32_1_0_0_1_n_n (some .fp32)
      (k0_pay1 x0 x1 x2 x3 x4) (shapeCast S64x32 x5 shapeCasts_S64x32_S64x32)
      (constant (F := Ideal) S10000x32 .f32 0x00000000#32) (ix2 p o) = _
  rw [shapeCast_self]
  refine ((Ideal.matmul_constant_zero_apply (φ₁ := .f32) (φ₂ := .f32) dot_S10000x64_S64x32_S10000x32_1_0_0_1_n_n (some .fp32)
      (k0_pay1 x0 x1 x2 x3 x4) x5 (ix2 p o)).trans
      (Cert.LibDense.plain_sum 10000 64 32 (k0_pay1 x0 x1 x2 x3 x4) x5 (ix2 p o))).trans ?_
  exact Finset.sum_congr rfl fun j _ => by
    rw [h5 j]
    exact congrArg (· * wo (ix2 j o))
      (payload1_at x0 x1 x2 x3 x4 agg x wl wr b p j R h0 h1 (fun k => h2 k j) (fun k => h3 k j) (h4 j))

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the ten grid points: the four row-banded windows move with the point, the weight tables and the
    bias row stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 ∧ t.val < 10 :=
  (by decide +kernel : ∀ t : Fin grid0.N, _)

/-- Every band of either output is some point's. -/
theorem index_onto6 : ∀ q0 : Fin 10, ∃ t : Fin cfg0.N, win0_6.index t = ![q0.val, 0] :=
  (by decide +kernel : ∀ q0 : Fin 10, ∃ t : Fin grid0.N, win0_6.index t = ![q0.val, 0])
theorem index_onto7 : ∀ q0 : Fin 10, ∃ t : Fin cfg0.N, win0_7.index t = ![q0.val, 0] :=
  (by decide +kernel : ∀ q0 : Fin 10, ∃ t : Fin grid0.N, win0_7.index t = ![q0.val, 0])

/-- The band of the neighbour sum and of the node features that point `t` reads, and the whole tables, at an index. -/
theorem read_agg (c : Dev nD) (t : Fin cfg0.N) (p : Fin 10000) (k : Fin 32) (hR : t.val * 10000 + p.val < 100000) :
  iblk0 V c 0 t (ix2 p k) = V c main_v13 (ix2 (⟨t.val * 10000 + p.val, hR⟩ : Fin 100000) k) := by
  obtain ⟨e00, e01, -⟩ := index_facts t
  show V c main_v13 (((cfg0.win 0).blk t).view.emb (ix2 p k)) = _
  refine congrArg (V c main_v13) (funext fun a => Fin.ext ?_)
  match a with
  | ⟨0, _⟩ => show win0_0.index t (0 : Fin 2) * 10000 + 1 * p.val = t.val * 10000 + p.val; omega
  | ⟨1, _⟩ => show win0_0.index t (1 : Fin 2) * 32 + 1 * k.val = k.val; omega
theorem read_x (c : Dev nD) (t : Fin cfg0.N) (p : Fin 10000) (k : Fin 32) (hR : t.val * 10000 + p.val < 100000) :
  iblk0 V c 1 t (ix2 p k) = V c main_arg0 (ix2 (⟨t.val * 10000 + p.val, hR⟩ : Fin 100000) k) := by
  obtain ⟨-, -, e10, e11, -⟩ := index_facts t
  show V c main_arg0 (((cfg0.win 1).blk t).view.emb (ix2 p k)) = _
  refine congrArg (V c main_arg0) (funext fun a => Fin.ext ?_)
  match a with
  | ⟨0, _⟩ => show win0_1.index t (0 : Fin 2) * 10000 + 1 * p.val = t.val * 10000 + p.val; omega
  | ⟨1, _⟩ => show win0_1.index t (1 : Fin 2) * 32 + 1 * k.val = k.val; omega
theorem read_wl (c : Dev nD) (t : Fin cfg0.N) (k : Fin 32) (j : Fin 64) :
  iblk0 V c 2 t (ix2 k j) = V c main_v14 (ix2 k j) := by
  obtain ⟨-, -, -, -, e20, e21, -⟩ := index_facts t
  show V c main_v14 (((cfg0.win 2).blk t).view.emb (ix2 k j)) = _
  refine congrArg (V c main_v14) (funext fun a => Fin.ext ?_)
  match a with
  | ⟨0, _⟩ => show win0_2.index t (0 : Fin 2) * 32 + 1 * k.val = k.val; omega
  | ⟨1, _⟩ => show win0_2.index t (1 : Fin 2) * 64 + 1 * j.val = j.val; omega
theorem read_wr (c : Dev nD) (t : Fin cfg0.N) (k : Fin 32) (j : Fin 64) :
  iblk0 V c 3 t (ix2 k j) = V c main_v15 (ix2 k j) := by
  obtain ⟨-, -, -, -, -, -, e30, e31, -⟩ := index_facts t
  show V c main_v15 (((cfg0.win 3).blk t).view.emb (ix2 k j)) = _
  refine congrArg (V c main_v15) (funext fun a => Fin.ext ?_)
  match a with
  | ⟨0, _⟩ => show win0_3.index t (0 : Fin 2) * 32 + 1 * k.val = k.val; omega
  | ⟨1, _⟩ => show win0_3.index t (1 : Fin 2) * 64 + 1 * j.val = j.val; omega
theorem read_b (c : Dev nD) (t : Fin cfg0.N) (j : Fin 64) :
  iblk0 V c 4 t (ix2 0 j) = V c main_v17 (ix2 0 j) := by
  obtain ⟨-, -, -, -, -, -, -, -, e40, e41, -⟩ := index_facts t
  show V c main_v17 (((cfg0.win 4).blk t).view.emb (ix2 0 j)) = _
  refine congrArg (V c main_v17) (funext fun a => Fin.ext ?_)
  match a with
  | ⟨0, _⟩ => show win0_4.index t (0 : Fin 2) * 1 + 1 * 0 = 0; omega
  | ⟨1, _⟩ => show win0_4.index t (1 : Fin 2) * 64 + 1 * j.val = j.val; omega
theorem read_wo (c : Dev nD) (t : Fin cfg0.N) (j : Fin 64) (o : Fin 32) :
  iblk0 V c 5 t (ix2 j o) = V c main_v16 (ix2 j o) := by
  obtain ⟨-, -, -, -, -, -, -, -, -, -, e50, e51, -⟩ := index_facts t
  show V c main_v16 (((cfg0.win 5).blk t).view.emb (ix2 j o)) = _
  refine congrArg (V c main_v16) (funext fun a => Fin.ext ?_)
  match a with
  | ⟨0, _⟩ => show win0_5.index t (0 : Fin 2) * 64 + 1 * j.val = j.val; omega
  | ⟨1, _⟩ => show win0_5.index t (1 : Fin 2) * 32 + 1 * o.val = o.val; omega

/-- What point `t` writes back to the hidden features is band `t` of `hid` of the entry contents. -/
theorem flushed6_eq (c : Dev nD) (t : Fin cfg0.N) :
    (dat0 V c).flushed 6 t = ((cfg0.win 6).blk t).view.read (Elt Ideal)
      (hid (V c main_v13) (V c main_arg0) (V c main_v14) (V c main_v15) (V c main_v17)) := by
  show (cfg0.win 6).cut (grid0.coords t) ((dat0 V c).after 6 t) = _
  rw [after0_6]
  unfold out0_6
  rw [View.canon_unit_zero offsets_zero]
  simp only [View.ld_unit_zero (S := S10000x32) offsets_zero, View.ld_unit_zero (S := S32x64) offsets_zero,
    View.ld_unit_zero (S := S1x64) offsets_zero]
  have hf := index_facts t
  funext i
  obtain ⟨p, j, rfl⟩ : ∃ (p : Fin 10000) (j : Fin 64), i = ix2 p j := ⟨i 0, i 1, eq_ix2 i⟩
  have hR : t.val * 10000 + p.val < 100000 := by have := p.isLt; omega
  have hemb : ((cfg0.win 6).blk t).view.emb (ix2 p j) = ix2 (⟨t.val * 10000 + p.val, hR⟩ : Fin 100000) j := by
    funext a; apply Fin.ext
    match a with
    | ⟨0, _⟩ => show win0_6.index t (0 : Fin 2) * 10000 + 1 * p.val = t.val * 10000 + p.val; omega
    | ⟨1, _⟩ => show win0_6.index t (1 : Fin 2) * 64 + 1 * j.val = j.val; omega
  show k0_pay1 (iblk0 V c 0 t) (iblk0 V c 1 t) (iblk0 V c 2 t) (iblk0 V c 3 t) (iblk0 V c 4 t) (ix2 p j)
    = hid (V c main_v13) (V c main_arg0) (V c main_v14) (V c main_v15) (V c main_v17) (((cfg0.win 6).blk t).view.emb (ix2 p j))
  rw [hemb]
  exact payload1_at (iblk0 V c 0 t) (iblk0 V c 1 t) (iblk0 V c 2 t) (iblk0 V c 3 t) (iblk0 V c 4 t) (V c main_v13)
    (V c main_arg0) (V c main_v14) (V c main_v15) (V c main_v17) p j ⟨t.val * 10000 + p.val, hR⟩
    (fun k => read_agg V c t p k hR) (fun k => read_x V c t p k hR) (fun k => read_wl V c t k j)
    (fun k => read_wr V c t k j) (read_b V c t j)

/-- What point `t` writes back to the projected features is band `t` of `proj` of the entry contents. -/
theorem flushed7_eq (c : Dev nD) (t : Fin cfg0.N) :
    (dat0 V c).flushed 7 t = ((cfg0.win 7).blk t).view.read (Elt Ideal)
      (proj (V c main_v13) (V c main_arg0) (V c main_v14) (V c main_v15) (V c main_v17) (V c main_v16)) := by
  show (cfg0.win 7).cut (grid0.coords t) ((dat0 V c).after 7 t) = _
  rw [after0_7]
  unfold out0_7
  rw [View.canon_unit_zero offsets_zero]
  simp only [View.ld_unit_zero (S := S10000x32) offsets_zero, View.ld_unit_zero (S := S32x64) offsets_zero,
    View.ld_unit_zero (S := S1x64) offsets_zero, View.ld_unit_zero (S := S64x32) offsets_zero]
  have hf := index_facts t
  funext i
  obtain ⟨p, o, rfl⟩ : ∃ (p : Fin 10000) (o : Fin 32), i = ix2 p o := ⟨i 0, i 1, eq_ix2 i⟩
  have hR : t.val * 10000 + p.val < 100000 := by have := p.isLt; omega
  have hemb : ((cfg0.win 7).blk t).view.emb (ix2 p o) = ix2 (⟨t.val * 10000 + p.val, hR⟩ : Fin 100000) o := by
    funext a; apply Fin.ext
    match a with
    | ⟨0, _⟩ => show win0_7.index t (0 : Fin 2) * 10000 + 1 * p.val = t.val * 10000 + p.val; omega
    | ⟨1, _⟩ => show win0_7.index t (1 : Fin 2) * 32 + 1 * o.val = o.val; omega
  show k0_pay2 (iblk0 V c 0 t) (iblk0 V c 1 t) (iblk0 V c 2 t) (iblk0 V c 3 t) (iblk0 V c 4 t) (iblk0 V c 5 t) (ix2 p o)
    = proj (V c main_v13) (V c main_arg0) (V c main_v14) (V c main_v15) (V c main_v17) (V c main_v16)
        (((cfg0.win 7).blk t).view.emb (ix2 p o))
  rw [hemb]
  exact payload2_at (iblk0 V c 0 t) (iblk0 V c 1 t) (iblk0 V c 2 t) (iblk0 V c 3 t) (iblk0 V c 4 t) (iblk0 V c 5 t)
    (V c main_v13) (V c main_arg0) (V c main_v14) (V c main_v15) (V c main_v17) (V c main_v16) p o
    ⟨t.val * 10000 + p.val, hR⟩
    (fun k => read_agg V c t p k hR) (fun k => read_x V c t p k hR) (fun k j => read_wl V c t k j)
    (fun k j => read_wr V c t k j) (fun j => read_b V c t j) (fun j => read_wo V c t j o)

/-- An index is in point `t`'s band of an output iff each coordinate is in the band's range on its axis. -/
theorem mem_band6 (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v18_0).slice (win0_6.rect t)).set ↔ _
  rw [View.set_slice_whole, Rect.mem_set_unit]
  exact Iff.rfl
theorem mem_band7 (t : Fin cfg0.N) (i : S100000x32.Idx) :
    i ∈ ((cfg0.win 7).blk t).view.set ↔ ∀ a : Fin 2, win0_7.index t a * S10000x32.size a ≤ (i a).val
      ∧ (i a).val < win0_7.index t a * S10000x32.size a + S10000x32.size a := by
  show i ∈ ((View.whole main_v18_1).slice (win0_7.rect t)).set ↔ _
  rw [View.set_slice_whole, Rect.mem_set_unit]
  exact Iff.rfl

/-- The bands tile the rows: row `r` is in the band of point `r / 10000`. -/
theorem covered6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := index_onto6 ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_band6]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 64 ≤ (i 1).val ∧ (i 1).val < win0_6.index t (1 : Fin 2) * 64 + 64
    omega
theorem covered7 (i : S100000x32.Idx) :
    ∃ t : Fin cfg0.N, (cfg0.win 7).flush t = true ∧ i ∈ ((cfg0.win 7).blk t).view.set := by
  have hi0 : (i 0).val < 100000 := (i 0).isLt
  have hi1 : (i 1).val < 32 := (i 1).isLt
  obtain ⟨t, ht⟩ := index_onto7 ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_band7]
  intro a
  match a with
  | ⟨0, _⟩ =>
    show win0_7.index t (0 : Fin 2) * 10000 ≤ (i 0).val ∧ (i 0).val < win0_7.index t (0 : Fin 2) * 10000 + 10000
    omega
  | ⟨1, _⟩ =>
    show win0_7.index t (1 : Fin 2) * 32 ≤ (i 1).val ∧ (i 1).val < win0_7.index t (1 : Fin 2) * 32 + 32
    omega

/-- THE HIDDEN FEATURES after the first kernel: `hid` of the entry contents, at every index. -/
theorem final6 (c : Dev nD) :
    (dat0 V c).arrAt 6 cfg0.N = hid (V c main_v13) (V c main_arg0) (V c main_v14) (V c main_v15) (V c main_v17) :=
  (dat0 V c).arrAt_eq_of_cover 6 _ (fun t _ => flushed6_eq V c t) covered6

/-- THE PROJECTED FEATURES after the first kernel: `proj` of the entry contents, at every index. -/
theorem final7 (c : Dev nD) :
    (dat0 V c).arrAt 7 cfg0.N
      = proj (V c main_v13) (V c main_arg0) (V c main_v14) (V c main_v15) (V c main_v17) (V c main_v16) :=
  (dat0 V c).arrAt_eq_of_cover 7 _ (fun t _ => flushed7_eq V c t) covered7

end Cert.KernelIdeal.Val0

end
-- ==== Proof.Region1.lean ====
/-
  What the second kernel leaves in its output array, for any contents `V` of the buffers at its entry.

  The grid has 10 points; point `t` works on rows `10000·t … 10000·t + 9999`: it reads that band of the aggregate
  `[100000, 32]` and of the hidden features `[100000, 64]`, the whole weight table `[64, 32]` and the bias row `[1, 32]`, and
  writes the same band of the result. Entry `(p, q)` of the band it writes is
  `(agg (p, q) + ∑ j, h (p, j) · w (j, q)) + b (0, q)`, so the whole array ends holding, at `(r, q)`,
  `(agg (r, q) + ∑ j, h (r, j) · w (j, q)) + b (0, q)` of the entry contents: the bands tile the rows.
-/
import proofs.«133607_j64707977281830_2_alg».proof.Proof.Gen.KernelIdeal.Frame
import proofs.«133607_j64707977281830_2_alg».proof.Proof.LibDense
import Idealize.ShloMosaic.Lib.Pipeline.Value
import Idealize.ShloMosaic.Lib.ValueIdx
import Idealize.ShloMosaic.PureOps.Ideal.Laws

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

/-- The second layer's combination, entry by entry: the aggregate plus the projected hidden row plus the bias. -/
def combine (agg : S100000x32.Idx → EReal) (h : S100000x64.Idx → EReal) (w : S64x32.Idx → EReal) (b : S1x32.Idx → EReal) :
    S100000x32.Idx → EReal :=
  fun i => (agg i + ∑ j : Fin 64, h (ix2 (i 0) j) * w (ix2 j (i 1))) + b (ix2 0 (i 1))

/-- The body's arithmetic at entry `(p, q)` of a band, when the band's rows are the rows `R` of the arrays. -/
theorem payload_at (x0 : Vec Ideal S10000x32 .f32) (x1 : Vec Ideal S10000x64 .f32) (x2 : Vec Ideal S64x32 .f32)
    (x3 : Vec Ideal S1x32 .f32) (agg : S100000x32.Idx → EReal) (h : S100000x64.Idx → EReal) (w : S64x32.Idx → EReal)
    (b : S1x32.Idx → EReal) (p : Fin 10000) (q : Fin 32) (R : Fin 100000)
    (h0 : x0 (ix2 p q) = agg (ix2 R q)) (h1 : ∀ j : Fin 64, x1 (ix2 p j) = h (ix2 R j))
    (h2 : ∀ j : Fin 64, x2 (ix2 j q) = w (ix2 j q)) (h3 : x3 (ix2 0 q) = b (ix2 0 q)) :
    k1_pay1 x0 x1 x2 x3 (ix2 p q) = combine agg h w b (ix2 R q) := by
  unfold k1_pay1 combine
  show (shapeCast S10000x32 x0 shapeCasts_S10000x32_S10000x32 (ix2 p q)
      + FloatOps.matmul dot_S10000x64_S64x32_S10000x32_1_0_0_1_n_n (some .fp32)
          (shapeCast S10000x64 x1 shapeCasts_S10000x64_S10000x64) (shapeCast S64x32 x2 shapeCasts_S64x32_S64x32)
          (constant (F := Ideal) S10000x32 .f32 0x00000000#32) (ix2 p q))
      + broadcastTo S10000x32 (shapeCast S1x32 x3 shapeCasts_S1x32_S1x32) broadcasts_S1x32_S10000x32 (ix2 p q) = _
  rw [shapeCast_self, shapeCast_self, shapeCast_self, shapeCast_self]
  have hm : FloatOps.matmul (φ₁ := .f32) (φ₂ := .f32) dot_S10000x64_S64x32_S10000x32_1_0_0_1_n_n (some .fp32) x1 x2
      (constant (F := Ideal) S10000x32 .f32 0x00000000#32) (ix2 p q) = ∑ j : Fin 64, x1 (ix2 p j) * x2 (ix2 j q) :=
    (Ideal.matmul_constant_zero_apply (φ₁ := .f32) (φ₂ := .f32) dot_S10000x64_S64x32_S10000x32_1_0_0_1_n_n (some .fp32) x1 x2 (ix2 p q)).trans
      (Cert.LibDense.plain_sum 10000 64 32 x1 x2 (ix2 p q))
  have hb : broadcastTo S10000x32 x3 broadcasts_S1x32_S10000x32 (ix2 p q) = x3 (ix2 0 q) :=
    broadcastTo_apply x3 broadcasts_S1x32_S10000x32 (ix2 p q) (ix2 0 q) (fun a => by
      match a with
      | ⟨0, _⟩ => rfl
      | ⟨1, _⟩ => rfl)
  rw [hm, hb, h0, h3]
  exact congrArg (fun s => (agg (ix2 R q) + s) + b (ix2 0 q))
    (Finset.sum_congr rfl fun j _ => by rw [h1 j, h2 j])

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the ten grid points: the three row-banded windows move with the point, the weight table and the
    bias row stay. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 10 :=
  (by decide +kernel : ∀ t : Fin grid1.N, _)

/-- Every band is some point's. -/
theorem index_onto : ∀ q0 : Fin 10, ∃ t : Fin cfg1.N, win1_4.index t = ![q0.val, 0] :=
  (by decide +kernel : ∀ q0 : Fin 10, ∃ t : Fin grid1.N, win1_4.index t = ![q0.val, 0])

/-- What point `t` writes back is band `t` of the combination of the entry contents. -/
theorem flushed_eq (c : Dev nD) (t : Fin cfg1.N) :
    (dat1 V c).flushed 4 t = ((cfg1.win 4).blk t).view.read (Elt Ideal)
      (combine (V c main_v28) (V c main_v18_0) (V c main_v29) (V c main_v30)) := by
  show (cfg1.win 4).cut (grid1.coords t) ((dat1 V c).after 4 t) = _
  rw [after1_4]
  unfold out1_4
  rw [View.canon_unit_zero offsets_zero]
  simp only [View.ld_unit_zero (S := S10000x32) offsets_zero, View.ld_unit_zero (S := S10000x64) offsets_zero,
    View.ld_unit_zero (S := S64x32) offsets_zero, View.ld_unit_zero (S := S1x32) offsets_zero]
  obtain ⟨e00, e01, e10, e11, e20, e21, e30, e31, e40, e41, hlt⟩ := index_facts t
  funext j
  obtain ⟨p, q, rfl⟩ : ∃ (p : Fin 10000) (q : Fin 32), j = ix2 p q := ⟨j 0, j 1, eq_ix2 j⟩
  have hR : t.val * 10000 + p.val < 100000 := by have := p.isLt; omega
  have hemb : ((cfg1.win 4).blk t).view.emb (ix2 p q) = ix2 (⟨t.val * 10000 + p.val, hR⟩ : Fin 100000) q := by
    funext a; apply Fin.ext
    match a with
    | ⟨0, _⟩ => show win1_4.index t (0 : Fin 2) * 10000 + 1 * p.val = t.val * 10000 + p.val; omega
    | ⟨1, _⟩ => show win1_4.index t (1 : Fin 2) * 32 + 1 * q.val = q.val; omega
  show k1_pay1 (iblk1 V c 0 t) (iblk1 V c 1 t) (iblk1 V c 2 t) (iblk1 V c 3 t) (ix2 p q)
    = combine (V c main_v28) (V c main_v18_0) (V c main_v29) (V c main_v30) (((cfg1.win 4).blk t).view.emb (ix2 p q))
  rw [hemb]
  refine payload_at (iblk1 V c 0 t) (iblk1 V c 1 t) (iblk1 V c 2 t) (iblk1 V c 3 t) (V c main_v28) (V c main_v18_0)
    (V c main_v29) (V c main_v30) p q ⟨t.val * 10000 + p.val, hR⟩ ?_ ?_ ?_ ?_
  · show V c main_v28 (((cfg1.win 0).blk t).view.emb (ix2 p q)) = _
    refine congrArg (V c main_v28) (funext fun a => Fin.ext ?_)
    match a with
    | ⟨0, _⟩ => show win1_0.index t (0 : Fin 2) * 10000 + 1 * p.val = t.val * 10000 + p.val; omega
    | ⟨1, _⟩ => show win1_0.index t (1 : Fin 2) * 32 + 1 * q.val = q.val; omega
  · intro j
    show V c main_v18_0 (((cfg1.win 1).blk t).view.emb (ix2 p j)) = _
    refine congrArg (V c main_v18_0) (funext fun a => Fin.ext ?_)
    match a with
    | ⟨0, _⟩ => show win1_1.index t (0 : Fin 2) * 10000 + 1 * p.val = t.val * 10000 + p.val; omega
    | ⟨1, _⟩ => show win1_1.index t (1 : Fin 2) * 64 + 1 * j.val = j.val; omega
  · intro j
    show V c main_v29 (((cfg1.win 2).blk t).view.emb (ix2 j q)) = _
    refine congrArg (V c main_v29) (funext fun a => Fin.ext ?_)
    match a with
    | ⟨0, _⟩ => show win1_2.index t (0 : Fin 2) * 64 + 1 * j.val = j.val; omega
    | ⟨1, _⟩ => show win1_2.index t (1 : Fin 2) * 32 + 1 * q.val = q.val; omega
  · show V c main_v30 (((cfg1.win 3).blk t).view.emb (ix2 0 q)) = _
    refine congrArg (V c main_v30) (funext fun a => Fin.ext ?_)
    match a with
    | ⟨0, _⟩ => show win1_3.index t (0 : Fin 2) * 1 + 1 * 0 = 0; omega
    | ⟨1, _⟩ => show win1_3.index t (1 : Fin 2) * 32 + 1 * q.val = q.val; omega

/-- An index of the array is in point `t`'s band iff each coordinate is in the band's range on its axis. -/
theorem mem_band (t : Fin cfg1.N) (i : S100000x32.Idx) :
    i ∈ ((cfg1.win 4).blk t).view.set ↔ ∀ a : Fin 2, win1_4.index t a * S10000x32.size a ≤ (i a).val
      ∧ (i a).val < win1_4.index t a * S10000x32.size a + S10000x32.size a := by
  show i ∈ ((View.whole main_v31).slice (win1_4.rect t)).set ↔ _
  rw [View.set_slice_whole, Rect.mem_set_unit]
  exact Iff.rfl

/-- The bands tile the rows: row `r` is in the band of point `r / 10000`. -/
theorem covered (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := index_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_band]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 32 ≤ (i 1).val ∧ (i 1).val < win1_4.index t (1 : Fin 2) * 32 + 32
    omega

/-- THE RESULT ARRAY after the second kernel: the combination of the entry contents, at every index. -/
theorem final (c : Dev nD) :
    (dat1 V c).arrAt 4 cfg1.N = combine (V c main_v28) (V c main_v18_0) (V c main_v29) (V c main_v30) :=
  (dat1 V c).arrAt_eq_of_cover 4 _ (fun t _ => flushed_eq V c t) covered

end Cert.KernelIdeal.Val1

end
-- ==== Proof.LibSageSum.lean ====
/-
  A two-layer graph convolution with SUM aggregation over a finite edge set, on the extended reals.

  Nodes `Fin N`, edges `Fin E`; edge `e` reads the row `src e` and contributes to node `r` when `D e r` holds (an edge whose
  target is no node contributes nowhere). For a node table `X : Fin N → Fin C → EReal` the neighbour sum is
  `nbr X r k = ∑ e, if D e r then X (src e) k else 0`.

  * the hidden layer: `hidden x r j = max ((∑ k, nbr x r k · wl j k + b j) + ∑ k, x r k · wr j k) 0`;
  * the output layer, projected AFTER the neighbour sum: `outAfter h r o = (∑ j, nbr h r j · wl o j + b o) + ∑ j, h r j · wr o j`;
  * the output layer with the left projection applied BEFORE the neighbour sum (the rows `t r' o = ∑ j, h r' j · wl o j` are
    summed over the edges): `outBefore h r o = (nbr t r o + ∑ j, h r j · wr o j) + b o`.

  The two output layers differ by exchanging a finite sum over edges with a finite sum over features and by moving a factor
  across the edge sum; on the extended reals that needs the entries of `h` and of `wl` to be real (a product with an
  infinity does not distribute), and then `outBefore = outAfter`; the hidden layer of real inputs is real. This file holds the
  definitions; the two theorems (`outBefore_eq_outAfter`, `hidden_real`) are in LibSageSumLaw.lean. Everything is generic in the sizes.
-/
import Mathlib.Data.EReal.Operations
import Mathlib.Algebra.BigOperators.Ring.Finset
import Mathlib.Algebra.Order.BigOperators.Group.Finset

noncomputable section

open scoped BigOperators

namespace Cert.LibSageSum

variable {N E : ℕ} (src : Fin E → Fin N) (D : Fin E → Fin N → Prop) [∀ e r, Decidable (D e r)]

/-- The neighbour sum of a node table: over the edges into `r`, the source row's entry. -/
def nbr {C : ℕ} (X : Fin N → Fin C → EReal) (r : Fin N) (k : Fin C) : EReal :=
  ∑ e : Fin E, if D e r then X (src e) k else 0

/-- The hidden layer: the rectified sum of the projected neighbour sum, the bias and the projected own row. -/
def hidden {d0 d1 : ℕ} (x : Fin N → Fin d0 → EReal) (wl wr : Fin d1 → Fin d0 → EReal) (b : Fin d1 → EReal)
    (r : Fin N) (j : Fin d1) : EReal :=
  max (((∑ k, nbr src D x r k * wl j k) + b j) + ∑ k, x r k * wr j k) 0

/-- The output layer with the left projection applied to the neighbour sum. -/
def outAfter {d1 d2 : ℕ} (h : Fin N → Fin d1 → EReal) (wl wr : Fin d2 → Fin d1 → EReal) (b : Fin d2 → EReal)
    (r : Fin N) (o : Fin d2) : EReal :=
  ((∑ j, nbr src D h r j * wl o j) + b o) + ∑ j, h r j * wr o j

/-- The output layer with the left projection applied row by row first, the projected rows then summed over the edges. -/
def outBefore {d1 d2 : ℕ} (h : Fin N → Fin d1 → EReal) (wl wr : Fin d2 → Fin d1 → EReal) (b : Fin d2 → EReal)
    (r : Fin N) (o : Fin d2) : EReal :=
  (nbr src D (fun r' o' => ∑ j, h r' j * wl o' j) r o + ∑ j, h r j * wr o j) + b o

end Cert.LibSageSum

end
-- ==== Proof.SageSpec.lean ====
/-
  The specification of the two programs' common result, at the literal sizes: 100000 nodes with 32 input features, 64 hidden
  features and 32 output features, 1600000 edges given as two index columns.

  An edge `e` reads the row `srcRow srcC e`: its source index read as a signed integer, negative values truncated to 0,
  clamped to the last row. It contributes to node `r` when its target index, read signed, is exactly `r` (`lands dstC e r`);
  a target index that is no node contributes nowhere. The hidden features and the two forms of the output layer are those of
  the generic two-layer sum-aggregation convolution, with the weight tables read at (output feature, input feature).
-/
import Idealize.ShloMosaic.PureOps.Ideal
import Idealize.ShloMosaic.Lib.ValueIdx
import proofs.«133607_j64707977281830_2_alg».proof.Proof.LibSageSum

noncomputable section

namespace Cert.Sage

open Idealize.ShloMosaic Idealize.ShloMosaic.ValueIdx

/-- The row edge `e` reads: its source index read signed, truncated at 0, clamped to the last row. -/
def srcRow (srcC : IVec ⟨2, ![1600000, 1]⟩ 32) (e : Fin 1600000) : Fin 100000 :=
  ⟨min (srcC (ix2 e 0)).toInt.toNat (100000 - 1), by omega⟩

/-- Edge `e` contributes to node `r`: its target index read signed is exactly `r`. -/
def lands (dstC : IVec ⟨2, ![1600000, 1]⟩ 32) (e : Fin 1600000) (r : Fin 100000) : Prop :=
  (dstC (ix2 e 0)).toInt = (r.val : Int)

instance (dstC : IVec ⟨2, ![1600000, 1]⟩ 32) (e : Fin 1600000) (r : Fin 100000) : Decidable (lands dstC e r) := by
  unfold lands; infer_instance

variable (srcC dstC : IVec ⟨2, ![1600000, 1]⟩ 32)

/-- The hidden features `[100000, 64]`: node features `a0`, left weights `a2`, bias `a3`, right weights `a4`. -/
def hiddenOf (a0 : (⟨2, ![100000, 32]⟩ : Shape).Idx → EReal) (a2 : (⟨2, ![64, 32]⟩ : Shape).Idx → EReal)
    (a3 : (⟨1, ![64]⟩ : Shape).Idx → EReal) (a4 : (⟨2, ![64, 32]⟩ : Shape).Idx → EReal) : Fin 100000 → Fin 64 → EReal :=
  LibSageSum.hidden (srcRow srcC) (lands dstC) (fun r k => a0 (ix2 r k)) (fun j k => a2 (ix2 j k))
    (fun j k => a4 (ix2 j k)) (fun j => a3 (ix1 j))

/-- The result with the second layer's left projection applied to the neighbour sum of the hidden features. -/
def outAfterOf (h : Fin 100000 → Fin 64 → EReal) (a5 : (⟨2, ![32, 64]⟩ : Shape).Idx → EReal)
    (a6 : (⟨1, ![32]⟩ : Shape).Idx → EReal) (a7 : (⟨2, ![32, 64]⟩ : Shape).Idx → EReal) : Fin 100000 → Fin 32 → EReal :=
  LibSageSum.outAfter (srcRow srcC) (lands dstC) h (fun o j => a5 (ix2 o j)) (fun o j => a7 (ix2 o j)) (fun o => a6 (ix1 o))

/-- The result with the left projection applied row by row before the neighbour sum. -/
def outBeforeOf (h : Fin 100000 → Fin 64 → EReal) (a5 : (⟨2, ![32, 64]⟩ : Shape).Idx → EReal)
    (a6 : (⟨1, ![32]⟩ : Shape).Idx → EReal) (a7 : (⟨2, ![32, 64]⟩ : Shape).Idx → EReal) : Fin 100000 → Fin 32 → EReal :=
  LibSageSum.outBefore (srcRow srcC) (lands dstC) h (fun o j => a5 (ix2 o j)) (fun o j => a7 (ix2 o j)) (fun o => a6 (ix1 o))

end Cert.Sage

end
-- ==== Proof.LibRowScatter.lean ====
/-
  Rows of a two-dimensional table read through an integer index column, and updates added into rows.

  A table `x : [R, C]` and an index array `idx : [n, 1]`.
  * GATHER OF ROWS (the gather operation with offset axis 1, collapsed slice axis 0, start index map `[0]`, index vector
    axis 1, slice sizes `[1, C]`): result element `(e, k)` is `x` at row `idx[e, 0]` — read as a signed integer, negative
    values truncated to 0, then clamped to at most `R − 1` — and column `k` (`gather_rows_apply`).
  * SCATTER-ADD INTO ROWS (the scatter operation with an `add` body, update window axis 1, inserted window axis 0,
    scatter-dims-to-operand-dims `[0]`, index vector axis 1): update element `(e, k)` lands at row `idx[e, 0]` read as a
    signed integer and column `k`, when that row is in `[0, R)`, and is dropped otherwise; so result element `(r, o)` is
    `x (r, o)` plus the sum over the `e` whose index is exactly `r` of the update `(e, o)` (`scatterAdd_rows_apply`).
  Both are generic in the sizes `R`, `C`, `n` and in the index width `w`; the dimension-number records take their
  well-formedness condition as a hypothesis, which is decided on literal sizes.
-/
import Idealize.ShloMosaic.PureOps.Ideal
import Idealize.ShloMosaic.Lib.ValueIdx

noncomputable section

open scoped BigOperators

namespace Cert.RowOps

open Idealize.ShloMosaic Idealize.ShloMosaic.ValueIdx

/-! ## Gather of rows -/

/-- The dimension numbers of a gather of whole rows: operand `[R, C]`, start indices `[n, 1]`, result `[n, C]`; the
    result's axis 1 is the offset axis, the operand's axis 0 is collapsed and is the one the start index names, the
    index vector lies along axis 1 of the start indices, and a slice is one row (`[1, C]`). -/
abbrev rowGather (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, k)`: the table at row `idx[e, 0]`, read signed, truncated at 0 and clamped to
    `R − 1`, and column `k`. -/
theorem gather_rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowGather R C n wf) x idx (ix2 e k)
      = x (ix2 ⟨min (idx (ix2 e 0)).toInt.toNat (R - 1), by omega⟩ k) := by
  unfold Host.gather
  congr 1
  funext a
  refine Fin.ext ?_
  match a with
  | ⟨0, _⟩ =>
    -- the row axis: the clamped start index; no batching coordinate, and no offset coordinate on a collapsed axis
    show (rowGather R C n wf).start (ix2 e k) idx 0 + (rowGather R C n wf).batchCoord (ix2 e k) 0
      + (rowGather R C n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C n wf).startIndexMap from List.mem_singleton.mpr rfl)]
    have hsi : (rowGather R C n wf).siIdx (ix2 e k) ⟨List.idxOf (0 : Fin 2) (rowGather R C n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not named by the start index map, so the start is 0 and the coordinate is the offset `k`
    show (rowGather R C n wf).start (ix2 e k) idx 1 + (rowGather R C n wf).batchCoord (ix2 e k) 1
      + (rowGather R C n wf).offCoord (ix2 e k) 1 = k.val
    rw [GatherDims.batchCoord_eq_zero _ _ _ List.not_mem_nil]
    have hst : (rowGather R C n wf).start (ix2 e k) idx 1 = 0 := by
      unfold GatherDims.start
      rw [dif_neg (show (1 : Fin 2) ∉ (rowGather R C n wf).startIndexMap from
        fun h => absurd (List.mem_singleton.mp h) (show (1 : Fin 2) ≠ 0 from by decide))]
    have hk : (1 : Fin 2) ∈ (rowGather R C n wf).sKept :=
      (GatherDims.mem_sKept _ _).mpr
        ⟨fun h => absurd (List.mem_singleton.mp h) (show (1 : Fin 2) ≠ 0 from by decide), List.not_mem_nil⟩
    rw [hst]
    unfold GatherDims.offCoord
    rw [dif_pos hk]
    simp only [Nat.zero_add, Nat.add_zero]
    rfl

/-! ## Scatter-add into rows -/

/-- The dimension numbers of a scatter of whole-row updates: operand `[R, C]`, scatter indices `[n, 1]`, updates
    `[n, C]`; the updates' axis 1 is the window axis, the operand's axis 0 is the inserted window axis and the one the
    scatter index names, and the index vector lies along axis 1 of the scatter indices. -/
abbrev rowScatter (R C n : Nat) (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

section
variable {R C n w : Nat} (wf : ScatterDims.WF ⟨2, ![R, C]⟩ ⟨2, ![n, 1]⟩ ⟨2, ![n, C]⟩ [1] [0] [0] 1)
  (idx : IVec ⟨2, ![n, 1]⟩ w) (e : Fin n) (k : Fin C)

/-- On the row axis the window of update `(e, k)` starts at `idx[e, 0]` read as a signed integer (not clamped). -/
theorem rowScatter_start0 :
    (rowScatter R C n wf).start (ix2 e k) idx 0 = (idx (ix2 e 0)).toInt := by
  unfold ScatterDims.start
  rw [dif_pos (show (0 : Fin 2) ∈ (rowScatter R C n wf).scatterDimsToOperandDims from List.mem_singleton.mpr rfl)]
  have hsi : (rowScatter R C n wf).siIdx (ix2 e k) ⟨List.idxOf (0 : Fin 2) (rowScatter R C n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the scatter index does not name, the window starts at 0. -/
theorem rowScatter_start1 : (rowScatter R C n wf).start (ix2 e k) idx 1 = 0 := by
  unfold ScatterDims.start
  rw [dif_neg (show (1 : Fin 2) ∉ (rowScatter R C n wf).scatterDimsToOperandDims from
    fun h => absurd (List.mem_singleton.mp h) (show (1 : Fin 2) ≠ 0 from by decide))]

/-- The row axis is an inserted window axis: the window coordinate there is 0. -/
theorem rowScatter_window0 : (rowScatter R C n wf).window (ix2 e k) 0 = 0 := by
  unfold ScatterDims.window
  rw [dif_neg]
  intro h
  simp [ScatterDims.sKept, Shape.kept] at h

/-- On the column axis the window coordinate of update `(e, k)` is `k`. -/
theorem rowScatter_window1 : (rowScatter R C n wf).window (ix2 e k) 1 = k.val := by
  have hk : (1 : Fin 2) ∈ (rowScatter R C n wf).sKept := by
    simp [ScatterDims.sKept, Shape.kept]
  unfold ScatterDims.window
  rw [dif_pos hk]
  rfl

/-- WHERE AN UPDATE LANDS: update `(e, k)` lands at `(r, o)` exactly when `idx[e, 0]`, read signed, is the row `r` and
    `k` is the column `o` (an index outside `[0, R)` is no row, so that update lands nowhere). -/
theorem rowScatter_resultIdx?_eq_some (r : Fin R) (o : Fin C) :
    (rowScatter R C n wf).resultIdx? (ix2 e k) idx = some (ix2 r o)
      ↔ (idx (ix2 e 0)).toInt = (r.val : Int) ∧ k = o := by
  have hs0 := rowScatter_start0 wf idx e k
  have hs1 := rowScatter_start1 wf idx e k
  have hw0 := rowScatter_window0 wf e k
  have hw1 := rowScatter_window1 wf e k
  unfold ScatterDims.resultIdx?
  constructor
  · intro h
    split at h
    · rename_i hall
      have h' := Option.some.inj h
      have h0 : ((rowScatter R C n wf).start (ix2 e k) idx 0
          + ((rowScatter R C n wf).window (ix2 e k) 0 : Nat)).toNat = r.val :=
        congrArg (fun f => (f 0).val) h'
      have h1 : ((rowScatter R C n wf).start (ix2 e k) idx 1
          + ((rowScatter R C n wf).window (ix2 e k) 1 : Nat)).toNat = o.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hr : r.val < R := r.isLt
    have hk : k.val < C := k.isLt
    have hall : ∀ a, 0 ≤ (rowScatter R C n wf).start (ix2 e k) idx a + ((rowScatter R C n wf).window (ix2 e k) a : Nat)
        ∧ (rowScatter R C n wf).start (ix2 e k) idx a + ((rowScatter R C n wf).window (ix2 e k) a : Nat)
          < ((⟨2, ![R, C]⟩ : Shape).size a : Nat) := by
      intro a
      match a with
      | ⟨0, _⟩ =>
        show 0 ≤ (rowScatter R C n wf).start (ix2 e k) idx 0 + ((rowScatter R C n wf).window (ix2 e k) 0 : Nat)
          ∧ (rowScatter R C n wf).start (ix2 e k) idx 0 + ((rowScatter R C n wf).window (ix2 e k) 0 : Nat) < (R : Int)
        rw [hs0, hw0, h0]; omega
      | ⟨1, _⟩ =>
        show 0 ≤ (rowScatter R C n wf).start (ix2 e k) idx 1 + ((rowScatter R C n wf).window (ix2 e k) 1 : Nat)
          ∧ (rowScatter R C n wf).start (ix2 e k) idx 1 + ((rowScatter R C n wf).window (ix2 e k) 1 : Nat) < (C : Int)
        rw [hs1, hw1]; omega
    rw [dif_pos hall]
    congr 1
    funext a
    refine Fin.ext ?_
    match a with
    | ⟨0, _⟩ =>
      show ((rowScatter R C n wf).start (ix2 e k) idx 0
        + ((rowScatter R C n wf).window (ix2 e k) 0 : Nat)).toNat = r.val
      rw [hs0, hw0, h0]; omega
    | ⟨1, _⟩ =>
      show ((rowScatter R C n wf).start (ix2 e k) idx 1
        + ((rowScatter R C n wf).window (ix2 e k) 1 : Nat)).toNat = k.val
      rw [hs1, hw1]; omega

end

/-- THE SCATTER-ADD INTO ROWS READ AT `(r, o)`: the operand's element plus the sum, over the updates `e` whose index
    `idx[e, 0]` read signed is exactly `r`, of the update's element in column `o`. -/
theorem scatterAdd_rows_apply {R C n w : Nat} (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (o : Fin C) :
    Ideal.hostScatterAdd (rowScatter R C n wf) x idx upd (ix2 r o)
      = x (ix2 r o) + ∑ e : Fin n, if (idx (ix2 e 0)).toInt = (r.val : Int) then upd (ix2 e o) else 0 := by
  unfold Ideal.hostScatterAdd
  congr 1
  -- the filtered sum as a sum of `if`s, over the two coordinates of the update index
  rw [Finset.sum_filter, sum_idx2]
  refine Finset.sum_congr rfl fun e _ => ?_
  simp only [rowScatter_resultIdx?_eq_some wf idx e _ r o]
  by_cases hA : (idx (ix2 e 0)).toInt = (r.val : Int)
  · -- the index is the row: of the columns only `o` contributes
    simp only [hA, true_and, if_true]
    rw [Finset.sum_ite_eq' Finset.univ o (fun k => upd (ix2 e k))]
    simp
  · simp [hA]

end Cert.RowOps

end
-- ==== Proof.KernelValue.lean ====
/-
  The kernel program's result, element by element, as the two-layer sum-aggregation convolution of the specification with the
  second layer's left projection applied BEFORE the neighbour sum.

  The program: a neighbour sum of the node features (gather of the source rows, scatter-add into the target rows of a zero
  table); the first kernel, which leaves the hidden features `max (((agg · Wlᵀ) + x · Wrᵀ) + b) 0` and their projection
  `hidden · Wloᵀ`; a neighbour sum of the PROJECTED rows; the second kernel, which leaves
  `(agg' + hidden · Wroᵀ) + b'`. Read at one element, with the transposed weight tables read back at (output, input) and the
  reshaped bias rows at their one coordinate, this is `outBeforeOf` of the hidden features `hiddenOf`; the hidden features'
  three summands are those of the specification in another order.
-/
import proofs.«133607_j64707977281830_2_alg».proof.Proof.KernelRun
import proofs.«133607_j64707977281830_2_alg».proof.Proof.KernelHost
import proofs.«133607_j64707977281830_2_alg».proof.Proof.Region0
import proofs.«133607_j64707977281830_2_alg».proof.Proof.Region1
import proofs.«133607_j64707977281830_2_alg».proof.Proof.SageSpec
import proofs.«133607_j64707977281830_2_alg».proof.Proof.LibRowScatter
import Idealize.ShloMosaic.PureOps.Ideal.Laws
import Idealize.ShloMosaic.Lib.ValueIdx
import Idealize.ShloMosaic.Lib.Pipeline.Value

noncomputable section

open scoped BigOperators

namespace Cert.Sage.Ker

open Idealize.ShloMosaic Idealize.ShloMosaic.ValueIdx Idealize.ShloMosaic.TcCoe Idealize.SL.Sem Cert.KernelIdeal
open Cert.KernelIdeal.Run (srcCol dstCol nbrSumOf)
open Cert.KernelIdeal.Val0 (hid proj)
open Cert.KernelIdeal.Val1 (combine)

/-! ## The host operations at an index -/

/-- A row gather at the program's dimension numbers: the table at the clamped row. -/
theorem gather_at (x : S100000x32.Idx → EReal) (idx : IVec S1600000x1 32) (e : Fin 1600000) (k : Fin 32) :
    Host.gather gather_S100000x32_S1600000x1_S1600000x32_1_0_n_n_0_1_132 x idx (ix2 e k)
      = x (ix2 ⟨min (idx (ix2 e 0)).toInt.toNat (100000 - 1), by omega⟩ k) :=
  Cert.RowOps.gather_rows_apply (by decide) gather_S100000x32_S1600000x1_S1600000x32_1_0_n_n_0_1_132.wf x idx e k

/-- A scatter-add of rows at the program's dimension numbers: the operand plus the updates whose index is the row. -/
theorem scatter_at (x : S100000x32.Idx → EReal) (idx : IVec S1600000x1 32) (upd : S1600000x32.Idx → EReal)
    (r : Fin 100000) (k : Fin 32) :
    Host.scatterAdd (F := Ideal) (φ := .f32) scatter_S100000x32_S1600000x1_S1600000x32_1_0_0_1 x idx upd (ix2 r k)
      = x (ix2 r k) + ∑ e : Fin 1600000, if (idx (ix2 e 0)).toInt = (r.val : Int) then upd (ix2 e k) else 0 :=
  Cert.RowOps.scatterAdd_rows_apply scatter_S100000x32_S1600000x1_S1600000x32_1_0_0_1.wf x idx upd r k

/-- The zero table the scatter-add starts from. -/
theorem zero_table (i : S100000x32.Idx) :
    broadcastInDim S100000x32 ![] Gen.bcast_S_S100000x32 (constant (F := Ideal) S_ .f32 0x00000000#32) i = 0 :=
  (broadcastInDim_apply _ Gen.bcast_S_S100000x32 (constant (F := Ideal) S_ .f32 0x00000000#32) i ix0 (fun a => a.elim0)).trans
    Ideal.ofBits_zero_f32

/-- The gather / scatter-add pair is the neighbour sum of the table. -/
theorem nbrSumOf_at (X : S100000x32.Idx → EReal) (a1 : IVec S2x1600000 32) (r : Fin 100000) (k : Fin 32) :
    nbrSumOf (F := Ideal) X a1 (ix2 r k)
      = LibSageSum.nbr (srcRow (srcCol (F := Ideal) a1)) (lands (dstCol (F := Ideal) a1)) (fun r k => X (ix2 r k)) r k := by
  unfold Cert.KernelIdeal.Run.nbrSumOf
  generalize srcCol (F := Ideal) a1 = srcC
  generalize dstCol (F := Ideal) a1 = dstC
  rw [scatter_at, zero_table, zero_add]
  unfold LibSageSum.nbr
  refine Finset.sum_congr rfl fun e _ => ?_
  rw [gather_at]
  rfl

/-- A transposed `[64, 32]` table read at `(k, j)` is the table at `(j, k)`. -/
theorem tr64x32_at (w : S64x32.Idx → EReal) (k : Fin 32) (j : Fin 64) :
    transpose S32x64 [1, 0] w Gen.transposes_S64x32_S32x64_1_0 (ix2 k j) = w (ix2 j k) :=
  transpose_apply [1, 0] w Gen.transposes_S64x32_S32x64_1_0 (ix2 k j) (ix2 j k) (fun b => by
    match b with
    | ⟨0, _⟩ => rfl
    | ⟨1, _⟩ => rfl)

/-- A transposed `[32, 64]` table read at `(j, o)` is the table at `(o, j)`. -/
theorem tr32x64_at (w : S32x64.Idx → EReal) (j : Fin 64) (o : Fin 32) :
    transpose S64x32 [1, 0] w Gen.transposes_S32x64_S64x32_1_0 (ix2 j o) = w (ix2 o j) :=
  transpose_apply [1, 0] w Gen.transposes_S32x64_S64x32_1_0 (ix2 j o) (ix2 o j) (fun b => by
    match b with
    | ⟨0, _⟩ => rfl
    | ⟨1, _⟩ => rfl)

/-- A bias vector reshaped to one row, read at `(0, j)`. -/
theorem row64_at (b : S64.Idx → EReal) (j : Fin 64) :
    shapeCast S1x64 b Gen.shapeCasts_S64_S1x64 (ix2 0 j) = b (ix1 j) :=
  shapeCast_apply b Gen.shapeCasts_S64_S1x64 (ix2 0 j) (ix1 j)
    (by rewrite [Shape.rowMajor_val_two, Shape.rowMajor_val_one]; show j.val = 0 * 64 + j.val; omega)

theorem row32_at (b : S32.Idx → EReal) (o : Fin 32) :
    shapeCast S1x32 b Gen.shapeCasts_S32_S1x32 (ix2 0 o) = b (ix1 o) :=
  shapeCast_apply b Gen.shapeCasts_S32_S1x32 (ix2 0 o) (ix1 o)
    (by rewrite [Shape.rowMajor_val_two, Shape.rowMajor_val_one]; show o.val = 0 * 32 + o.val; omega)

/-! ## The two kernels' arrays at an index -/

section Arrays
variable (a0 : S100000x32.Idx → EReal) (a1 : IVec S2x1600000 32) (a2 : S64x32.Idx → EReal) (a3 : S64.Idx → EReal)
  (a4 : S64x32.Idx → EReal) (a5 : S32x64.Idx → EReal) (a6 : S32.Idx → EReal) (a7 : S32x64.Idx → EReal)

/-- The hidden features the first kernel leaves, as an array of the arguments. -/
def hidArr : S100000x64.Idx → EReal :=
  hid (nbrSumOf (F := Ideal) a0 a1) a0 (transpose S32x64 [1, 0] a2 Gen.transposes_S64x32_S32x64_1_0)
    (transpose S32x64 [1, 0] a4 Gen.transposes_S64x32_S32x64_1_0) (shapeCast S1x64 a3 Gen.shapeCasts_S64_S1x64)

/-- Their projection, as an array of the arguments. -/
def projArr : S100000x32.Idx → EReal :=
  proj (nbrSumOf (F := Ideal) a0 a1) a0 (transpose S32x64 [1, 0] a2 Gen.transposes_S64x32_S32x64_1_0)
    (transpose S32x64 [1, 0] a4 Gen.transposes_S64x32_S32x64_1_0) (shapeCast S1x64 a3 Gen.shapeCasts_S64_S1x64)
    (transpose S64x32 [1, 0] a5 Gen.transposes_S32x64_S64x32_1_0)

/-- The result, as an array of the arguments. -/
def outArr : S100000x32.Idx → EReal :=
  combine (nbrSumOf (F := Ideal) (projArr a0 a1 a2 a3 a4 a5) a1) (hidArr a0 a1 a2 a3 a4)
    (transpose S64x32 [1, 0] a7 Gen.transposes_S32x64_S64x32_1_0) (shapeCast S1x32 a6 Gen.shapeCasts_S32_S1x32)

/-- The hidden features at `(r, j)` are the specification's: the same three summands, the bias added last instead of second. -/
theorem hidArr_at (r : Fin 100000) (j : Fin 64) :
    hidArr a0 a1 a2 a3 a4 (ix2 r j) = hiddenOf (srcCol (F := Ideal) a1) (dstCol (F := Ideal) a1) a0 a2 a3 a4 r j := by
  unfold hidArr Cert.KernelIdeal.Val0.hid hiddenOf LibSageSum.hidden
  show max (((∑ k : Fin 32, nbrSumOf (F := Ideal) a0 a1 (ix2 r k)
        * transpose S32x64 [1, 0] a2 Gen.transposes_S64x32_S32x64_1_0 (ix2 k j))
      + ∑ k : Fin 32, a0 (ix2 r k) * transpose S32x64 [1, 0] a4 Gen.transposes_S64x32_S32x64_1_0 (ix2 k j))
      + shapeCast S1x64 a3 Gen.shapeCasts_S64_S1x64 (ix2 0 j)) 0 = _
  simp only [nbrSumOf_at, row64_at]
  rw [add_right_comm]
  refine congrArg₂ (fun s s' => max ((s + a3 (ix1 j)) + s') 0) (Finset.sum_congr rfl fun k _ => ?_)
    (Finset.sum_congr rfl fun k _ => ?_)
  · rw [tr64x32_at]
  · rw [tr64x32_at]

/-- The projected features at `(r, o)`. -/
theorem projArr_at (r : Fin 100000) (o : Fin 32) :
    projArr a0 a1 a2 a3 a4 a5 (ix2 r o)
      = ∑ j : Fin 64, hiddenOf (srcCol (F := Ideal) a1) (dstCol (F := Ideal) a1) a0 a2 a3 a4 r j * a5 (ix2 o j) := by
  unfold projArr Cert.KernelIdeal.Val0.proj
  show ∑ j : Fin 64, hidArr a0 a1 a2 a3 a4 (ix2 r j)
      * transpose S64x32 [1, 0] a5 Gen.transposes_S32x64_S64x32_1_0 (ix2 j o) = _
  simp only [hidArr_at]
  exact Finset.sum_congr rfl fun j _ => by rw [tr32x64_at]

/-- THE KERNEL PROGRAM'S RESULT at `(r, o)`: the output layer with the left projection applied before the neighbour sum. -/
theorem outArr_at (r : Fin 100000) (o : Fin 32) :
    outArr a0 a1 a2 a3 a4 a5 a6 a7 (ix2 r o)
      = outBeforeOf (srcCol (F := Ideal) a1) (dstCol (F := Ideal) a1)
          (hiddenOf (srcCol (F := Ideal) a1) (dstCol (F := Ideal) a1) a0 a2 a3 a4) a5 a6 a7 r o := by
  unfold outArr Cert.KernelIdeal.Val1.combine outBeforeOf LibSageSum.outBefore
  show (nbrSumOf (F := Ideal) (projArr a0 a1 a2 a3 a4 a5) a1 (ix2 r o)
      + ∑ j : Fin 64, hidArr a0 a1 a2 a3 a4 (ix2 r j) * transpose S64x32 [1, 0] a7 Gen.transposes_S32x64_S64x32_1_0 (ix2 j o))
      + shapeCast S1x32 a6 Gen.shapeCasts_S32_S1x32 (ix2 0 o) = _
  simp only [nbrSumOf_at, projArr_at, hidArr_at, row32_at]
  have e : ∑ j : Fin 64, hiddenOf (srcCol (F := Ideal) a1) (dstCol (F := Ideal) a1) a0 a2 a3 a4 r j
        * transpose S64x32 [1, 0] a7 Gen.transposes_S32x64_S64x32_1_0 (ix2 j o)
      = ∑ j : Fin 64, hiddenOf (srcCol (F := Ideal) a1) (dstCol (F := Ideal) a1) a0 a2 a3 a4 r j * a7 (ix2 o j) :=
    Finset.sum_congr rfl fun j _ => by rw [tr32x64_at]
  rw [e]

end Arrays

/-! ## The result array after the run -/

variable (m : (ℓ : Loc nD τ sig) → Buf (Elt Ideal) ℓ) (ρ : Dev nD → PrngReg)

/-- The hidden features' array after the first kernel. -/
theorem hid_arr (c : Dev nD) :
    Gen.W2 m ρ c (Proc.devRef .tc main_v18_0)
      = hidArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (Run.h_arr m ρ c).trans ((Cert.KernelIdeal.Val0.final6 (Gen.V1 m ρ) c).trans ?_)
  rw [Run.V1_v13 m ρ c, Run.V1_arg0 m ρ c, Run.V1_v14 m ρ c, Run.V1_v15 m ρ c, Run.V1_v17 m ρ c]
  rfl

/-- The projected features' array after the first kernel. -/
theorem proj_arr (c : Dev nD) :
    Gen.W2 m ρ c (Proc.devRef .tc main_v18_1)
      = projArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  refine (Run.t_arr m ρ c).trans ((Cert.KernelIdeal.Val0.final7 (Gen.V1 m ρ) c).trans ?_)
  rw [Run.V1_v13 m ρ c, Run.V1_arg0 m ρ c, Run.V1_v14 m ρ c, Run.V1_v15 m ρ c, Run.V1_v17 m ρ c, Run.V1_v16 m ρ c]
  rfl

/-- THE RESULT ARRAY after the run, as an array of the arguments. -/
theorem out_arr (c : Dev nD) :
    Gen.W4 m ρ c (Proc.devRef .tc main_v31)
      = outArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (Run.out_arr m ρ c).trans ((Cert.KernelIdeal.Val1.final (Gen.V3 m ρ) c).trans ?_)
  rw [Run.V3_v28 m ρ c, Run.V3_v18_0 m ρ c, Run.V3_v29 m ρ c, Run.V3_v30 m ρ c, proj_arr m ρ c, hid_arr m ρ c]
  rfl

end Cert.Sage.Ker

end
-- ==== Proof.FiniteArgs.lean ====
/-
  THE PRECONDITION `finite_inputs`, READ BACK AS "EVERY ENTRY IS A REAL NUMBER".

  The predicate computes, for each of the seven float arguments a, the bit  all(|a| < +∞)  — an elementwise comparison of
  the absolute value against the pattern 0x7F800000 (which denotes +∞), folded by `and` over every axis from the constant 1 —
  and then the conjunction of the seven bits. Over the extended reals an element x has |x| = max x (−x), so |x| < +∞ fails at
  x = +∞ (|x| = +∞) and at x = −∞ (−x = +∞, so |x| = +∞ again): what is left is exactly the real numbers. So when the
  predicate's one bit is 1, each of the seven folds is 1, every comparison under each fold is 1, and every entry is a real.
-/
import proofs.«133607_j64707977281830_2_alg».proof.Pre_finite_inputs
import Idealize.ShloMosaic.PureOps.Ideal
import Idealize.ShloMosaic.Lib.ValueIdx
import Idealize.ShloMosaic.Lib.ReduceAll

noncomputable section

namespace Cert.SageFinite

open Idealize.ShloMosaic Idealize.ShloMosaic.ValueIdx

/-- The pattern 0x7F800000 (exponent field all ones, fraction zero, sign clear) denotes +∞. -/
theorem inf_word : Ideal.ofBits .f32 0x7F800000#32 = (⊤ : EReal) := by
  simp [Ideal.ofBits, Ideal.ieee]

/-- ONE ELEMENT: if the comparison |x| < +∞ came out 1 then x is a real number. At x = +∞ the maximum of x and −x is
    +∞ through x, at x = −∞ through −x = +∞, and +∞ < +∞ is false; only the reals are left. -/
theorem real_of_abs_lt_inf (x : EReal)
    (h : FloatOps.cmpf (F := Ideal) (φ := .f32) .olt (FloatOps.hostAbsf (F := Ideal) (φ := .f32) x)
          (Ideal.ofBits .f32 0x7F800000#32) = 1#1) :
    ∃ r : ℝ, x = (r : EReal) := by
  rw [inf_word] at h
  have hlt : max x (-x) < (⊤ : EReal) := by
    have h' : BitVec.ofBool (decide (max x (-x) < (⊤ : EReal))) = 1#1 := h
    cases hd : decide (max x (-x) < (⊤ : EReal)) with
    | true => exact of_decide_eq_true hd
    | false => rw [hd] at h'; exact absurd h' (by decide)
  induction x using EReal.rec with
  | bot => simp at hlt
  | coe r => exact ⟨r, rfl⟩
  | top => simp at hlt

/-- The rank-0 result shape has one index. -/
instance : Subsingleton Cert.Pre_finite_inputs.S_.Idx := ⟨fun a b => funext fun d => d.elim0⟩

/-- ONE `all(|a| < +∞)`, at any shape: the fold by `and` over all axes of the comparisons of |a| with the broadcast
    +∞ pattern is 1 only if every comparison is 1, that is only if every entry of a is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1) :
    ∀ i, ∃ r : ℝ, a i = (r : EReal) := fun i =>
  real_of_abs_lt_inf (a i) (Host.reduce_andi_all _ _ hr hu ix0 h i)

open Cert.Pre_finite_inputs Cert.Pre_finite_inputs.Facts in
/-- THE PRECONDITION DECODED: the predicate's bit is the conjunction of the seven folds (the integer argument is not
    tested); each conjunct gives its argument's entries as reals. -/
theorem real_of_pre [Cert.Pre_finite_inputs.Facts]
    (a0 : FVec Ideal Cert.Pre_finite_inputs.S100000x32 .f32) (a1 : IVec Cert.Pre_finite_inputs.S2x1600000 32)
    (a2 : FVec Ideal Cert.Pre_finite_inputs.S64x32 .f32) (a3 : FVec Ideal Cert.Pre_finite_inputs.S64 .f32)
    (a4 : FVec Ideal Cert.Pre_finite_inputs.S64x32 .f32) (a5 : FVec Ideal Cert.Pre_finite_inputs.S32x64 .f32)
    (a6 : FVec Ideal Cert.Pre_finite_inputs.S32 .f32) (a7 : FVec Ideal Cert.Pre_finite_inputs.S32x64 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) := by
  have e := congrFun h ix0
  dsimp only [Cert.Pre_finite_inputs.fn, Cert.Pre_finite_inputs.fn_part1] at e
  simp only [Idealize.ShloMosaic.andi, IntOp.andi_eq_one] at e
  obtain ⟨⟨⟨⟨⟨⟨h0, h2⟩, h3⟩, h4⟩, h5⟩, h6⟩, h7⟩ := e
  exact ⟨real_of_all a0 _ _ _ h0, real_of_all a2 _ _ _ h2, real_of_all a3 _ _ _ h3, real_of_all a4 _ _ _ h4,
    real_of_all a5 _ _ _ h5, real_of_all a6 _ _ _ h6, real_of_all a7 _ _ _ h7⟩

end Cert.SageFinite

end
-- ==== Proof.RefValue.lean ====
/-
  The reference program's result, element by element, as the two-layer sum-aggregation convolution of the specification.

  The reference computes, for each of its two layers, a gather of the source rows of a node table along the edge list,
  a scatter-add of the gathered rows into the target rows of a zero table, two dense products, a bias and (after the
  first layer) a rectification. Read at one element:
  * the scatter-add of the gathered rows into zeros is the neighbour sum: element `(r, k)` is the sum, over the edges whose
    target index is exactly `r`, of the table's entry at the edge's (clamped) source row and column `k`;
  * a dense product with a transposed weight table is `∑ k, t (r, k) · w (j, k)`; the bias is broadcast along the rows;
  * the hidden features are the maximum with the constant zero.
  The edge list's two index columns are computed twice by the program, once per layer, by the same operations of the same
  argument; the two copies are equal.
-/
import proofs.«133607_j64707977281830_2_alg».proof.Proof.Gen.ReferenceIdeal.Read
import proofs.«133607_j64707977281830_2_alg».proof.Proof.SageSpec
import proofs.«133607_j64707977281830_2_alg».proof.Proof.LibRowScatter
import Idealize.ShloMosaic.PureOps.Ideal.Laws
import Idealize.ShloMosaic.Lib.ValueIdx

noncomputable section

open scoped BigOperators

namespace Cert.Sage.Ref

open Idealize.ShloMosaic Idealize.ShloMosaic.ValueIdx Cert.ReferenceIdeal

/-! ## The index functions of the layout operations, at an index given by its coordinates -/

section Indices
variable (r : Fin 100000)

theorem lidx15 (j : Fin 64) (k : Fin 32) : Read.lidx_main_v15 (ix2 r j) k = ix2 r k :=
  funext fun a => Fin.ext (by match a with | ⟨0, _⟩ => rfl | ⟨1, _⟩ => rfl)
theorem ridx15 (j : Fin 64) (k : Fin 32) : Read.idx_main_v14 (Read.ridx_main_v15 (ix2 r j) k) = ix2 j k :=
  funext fun a => Fin.ext (by match a with | ⟨0, _⟩ => rfl | ⟨1, _⟩ => rfl)
theorem bidx17 (j : Fin 64) : Read.idx_main_v16 (Read.idx_main_v17 (ix2 r j)) = ix1 j :=
  funext fun a => Fin.ext (by match a with | ⟨0, _⟩ => rfl)
theorem lidx20 (j : Fin 64) (k : Fin 32) : Read.lidx_main_v20 (ix2 r j) k = ix2 r k :=
  funext fun a => Fin.ext (by match a with | ⟨0, _⟩ => rfl | ⟨1, _⟩ => rfl)
theorem ridx20 (j : Fin 64) (k : Fin 32) : Read.idx_main_v19 (Read.ridx_main_v20 (ix2 r j) k) = ix2 j k :=
  funext fun a => Fin.ext (by match a with | ⟨0, _⟩ => rfl | ⟨1, _⟩ => rfl)
theorem lidx38 (o : Fin 32) (j : Fin 64) : Read.lidx_main_v38 (ix2 r o) j = ix2 r j :=
  funext fun a => Fin.ext (by match a with | ⟨0, _⟩ => rfl | ⟨1, _⟩ => rfl)
theorem ridx38 (o : Fin 32) (j : Fin 64) : Read.idx_main_v37 (Read.ridx_main_v38 (ix2 r o) j) = ix2 o j :=
  funext fun a => Fin.ext (by match a with | ⟨0, _⟩ => rfl | ⟨1, _⟩ => rfl)
theorem bidx40 (o : Fin 32) : Read.idx_main_v39 (Read.idx_main_v40 (ix2 r o)) = ix1 o :=
  funext fun a => Fin.ext (by match a with | ⟨0, _⟩ => rfl)
theorem lidx43 (o : Fin 32) (j : Fin 64) : Read.lidx_main_v43 (ix2 r o) j = ix2 r j :=
  funext fun a => Fin.ext (by match a with | ⟨0, _⟩ => rfl | ⟨1, _⟩ => rfl)
theorem ridx43 (o : Fin 32) (j : Fin 64) : Read.idx_main_v42 (Read.ridx_main_v43 (ix2 r o) j) = ix2 o j :=
  funext fun a => Fin.ext (by match a with | ⟨0, _⟩ => rfl | ⟨1, _⟩ => rfl)

end Indices

/-! ## The constant zero tables -/

theorem v11_zero (i : S100000x32.Idx) : Read.val_main_v11 (F := Ideal) i = 0 := by
  rw [Read.val_main_v11_apply, Read.val_main_cst_apply, Ideal.ofBits_def, Ideal.ofBits_zero_f32]
theorem v34_zero (i : S100000x64.Idx) : Read.val_main_v34 (F := Ideal) i = 0 := by
  rw [Read.val_main_v34_apply, Read.val_main_cst_3_apply, Ideal.ofBits_def, Ideal.ofBits_zero_f32]
theorem relu_zero (i : S100000x64.Idx) : Read.val_main_call0_v0 (F := Ideal) i = 0 := by
  rw [Read.val_main_call0_v0_apply, Read.val_main_call0_cst_apply, Ideal.ofBits_def, Ideal.ofBits_zero_f32]

/-! ## The two index columns are computed twice, by the same operations -/

theorem v32_eq (a1 : (⟨S2x1600000, .i32⟩ : BufTy).Contents (Elt Ideal)) :
    Read.val_main_v32 (F := Ideal) a1 = Read.val_main_v9 (F := Ideal) a1 := rfl
theorem v35_eq (a1 : (⟨S2x1600000, .i32⟩ : BufTy).Contents (Elt Ideal)) :
    Read.val_main_v35 (F := Ideal) a1 = Read.val_main_v12 (F := Ideal) a1 := rfl

/-! ## The row gathers and the scatter-adds of rows, at the program's dimension numbers -/

theorem gather32_apply (x : S100000x32.Idx → EReal) (idx : IVec S1600000x1 32) (e : Fin 1600000) (k : Fin 32) :
    Host.gather gather_S100000x32_S1600000x1_S1600000x32_1_0_n_n_0_1_132 x idx (ix2 e k)
      = x (ix2 ⟨min (idx (ix2 e 0)).toInt.toNat (100000 - 1), by omega⟩ k) :=
  Cert.RowOps.gather_rows_apply (by decide) gather_S100000x32_S1600000x1_S1600000x32_1_0_n_n_0_1_132.wf x idx e k

theorem gather64_apply (x : S100000x64.Idx → EReal) (idx : IVec S1600000x1 32) (e : Fin 1600000) (k : Fin 64) :
    Host.gather gather_S100000x64_S1600000x1_S1600000x64_1_0_n_n_0_1_164 x idx (ix2 e k)
      = x (ix2 ⟨min (idx (ix2 e 0)).toInt.toNat (100000 - 1), by omega⟩ k) :=
  Cert.RowOps.gather_rows_apply (by decide) gather_S100000x64_S1600000x1_S1600000x64_1_0_n_n_0_1_164.wf x idx e k

theorem scatter32_apply (x : S100000x32.Idx → EReal) (idx : IVec S1600000x1 32) (upd : S1600000x32.Idx → EReal)
    (r : Fin 100000) (k : Fin 32) :
    Host.scatterAdd (F := Ideal) (φ := .f32) scatter_S100000x32_S1600000x1_S1600000x32_1_0_0_1 x idx upd (ix2 r k)
      = x (ix2 r k) + ∑ e : Fin 1600000, if (idx (ix2 e 0)).toInt = (r.val : Int) then upd (ix2 e k) else 0 :=
  Cert.RowOps.scatterAdd_rows_apply scatter_S100000x32_S1600000x1_S1600000x32_1_0_0_1.wf x idx upd r k

theorem scatter64_apply (x : S100000x64.Idx → EReal) (idx : IVec S1600000x1 32) (upd : S1600000x64.Idx → EReal)
    (r : Fin 100000) (k : Fin 64) :
    Host.scatterAdd (F := Ideal) (φ := .f32) scatter_S100000x64_S1600000x1_S1600000x64_1_0_0_1 x idx upd (ix2 r k)
      = x (ix2 r k) + ∑ e : Fin 1600000, if (idx (ix2 e 0)).toInt = (r.val : Int) then upd (ix2 e k) else 0 :=
  Cert.RowOps.scatterAdd_rows_apply scatter_S100000x64_S1600000x1_S1600000x64_1_0_0_1.wf x idx upd r k

/-! ## The stages of the first layer -/

section Layer1
variable (a0 : (⟨S100000x32, .f32⟩ : BufTy).Contents (Elt Ideal)) (a1 : (⟨S2x1600000, .i32⟩ : BufTy).Contents (Elt Ideal))
  (a2 : (⟨S64x32, .f32⟩ : BufTy).Contents (Elt Ideal)) (a3 : (⟨S64, .f32⟩ : BufTy).Contents (Elt Ideal))
  (a4 : (⟨S64x32, .f32⟩ : BufTy).Contents (Elt Ideal)) (r : Fin 100000)

/-- The scatter-add of the gathered rows of the node features into zeros is their neighbour sum. -/
theorem v13_at (k : Fin 32) :
    Read.val_main_v13 (F := Ideal) a0 a1 (ix2 r k)
      = LibSageSum.nbr (srcRow (Read.val_main_v9 (F := Ideal) a1)) (lands (Read.val_main_v12 (F := Ideal) a1))
          (fun r k => a0 (ix2 r k)) r k := by
  unfold Read.val_main_v13 Read.val_main_v10
  generalize Read.val_main_v9 (F := Ideal) a1 = srcC
  generalize Read.val_main_v12 (F := Ideal) a1 = dstC
  rw [scatter32_apply, v11_zero, zero_add]
  unfold LibSageSum.nbr
  refine Finset.sum_congr rfl fun e _ => ?_
  rw [gather32_apply]
  rfl

/-- The neighbour sum projected by the left weights. -/
theorem v15_at (j : Fin 64) :
    Read.val_main_v15 (F := Ideal) a0 a1 a2 (ix2 r j)
      = ∑ k : Fin 32, Read.val_main_v13 (F := Ideal) a0 a1 (ix2 r k) * a2 (ix2 j k) := by
  rw [Read.val_main_v15_apply]
  refine Finset.sum_congr rfl fun k _ => ?_
  rw [Read.val_main_v14_apply, lidx15, ridx15]

/-- The bias, broadcast along the rows. -/
theorem v17_at (j : Fin 64) : Read.val_main_v17 (F := Ideal) a3 (ix2 r j) = a3 (ix1 j) := by
  rw [Read.val_main_v17_apply, Read.val_main_v16_apply, bidx17]

/-- The node's own features projected by the right weights. -/
theorem v20_at (j : Fin 64) :
    Read.val_main_v20 (F := Ideal) a0 a4 (ix2 r j) = ∑ k : Fin 32, a0 (ix2 r k) * a4 (ix2 j k) := by
  rw [Read.val_main_v20_apply]
  refine Finset.sum_congr rfl fun k _ => ?_
  rw [Read.val_main_v19_apply, lidx20, ridx20]

/-- The hidden features. -/
theorem v22_at (j : Fin 64) :
    Read.val_main_v22 (F := Ideal) a0 a1 a2 a3 a4 (ix2 r j)
      = hiddenOf (Read.val_main_v9 (F := Ideal) a1) (Read.val_main_v12 (F := Ideal) a1) a0 a2 a3 a4 r j := by
  rw [Read.val_main_v22_apply, Read.val_main_v21_apply, Read.val_main_v18_apply, v15_at, v17_at, v20_at, relu_zero,
    Ideal.maximumf_def, Ideal.addf_def, Ideal.addf_def]
  simp only [v13_at]
  generalize Read.val_main_v9 (F := Ideal) a1 = srcC
  generalize Read.val_main_v12 (F := Ideal) a1 = dstC
  rfl

end Layer1

/-! ## The stages of the second layer, and the result -/

section Layer2
variable (a0 : (⟨S100000x32, .f32⟩ : BufTy).Contents (Elt Ideal)) (a1 : (⟨S2x1600000, .i32⟩ : BufTy).Contents (Elt Ideal))
  (a2 : (⟨S64x32, .f32⟩ : BufTy).Contents (Elt Ideal)) (a3 : (⟨S64, .f32⟩ : BufTy).Contents (Elt Ideal))
  (a4 : (⟨S64x32, .f32⟩ : BufTy).Contents (Elt Ideal)) (a5 : (⟨S32x64, .f32⟩ : BufTy).Contents (Elt Ideal))
  (a6 : (⟨S32, .f32⟩ : BufTy).Contents (Elt Ideal)) (a7 : (⟨S32x64, .f32⟩ : BufTy).Contents (Elt Ideal))
  (r : Fin 100000)

/-- The scatter-add of the gathered rows of the hidden features into zeros is their neighbour sum. -/
theorem v36_at (j : Fin 64) :
    Read.val_main_v36 (F := Ideal) a0 a1 a2 a3 a4 (ix2 r j)
      = LibSageSum.nbr (srcRow (Read.val_main_v9 (F := Ideal) a1)) (lands (Read.val_main_v12 (F := Ideal) a1))
          (hiddenOf (Read.val_main_v9 (F := Ideal) a1) (Read.val_main_v12 (F := Ideal) a1) a0 a2 a3 a4) r j := by
  unfold Read.val_main_v36 Read.val_main_v33
  rw [v32_eq, v35_eq, scatter64_apply, v34_zero, zero_add]
  unfold LibSageSum.nbr
  refine Finset.sum_congr rfl fun e _ => ?_
  rw [gather64_apply, v22_at]
  generalize hiddenOf (Read.val_main_v9 (F := Ideal) a1) (Read.val_main_v12 (F := Ideal) a1) a0 a2 a3 a4 = h
  generalize Read.val_main_v9 (F := Ideal) a1 = srcC
  generalize Read.val_main_v12 (F := Ideal) a1 = dstC
  rfl

/-- The neighbour sum of the hidden features projected by the left weights. -/
theorem v38_at (o : Fin 32) :
    Read.val_main_v38 (F := Ideal) a0 a1 a2 a3 a4 a5 (ix2 r o)
      = ∑ j : Fin 64, Read.val_main_v36 (F := Ideal) a0 a1 a2 a3 a4 (ix2 r j) * a5 (ix2 o j) := by
  rw [Read.val_main_v38_apply]
  refine Finset.sum_congr rfl fun j _ => ?_
  rw [Read.val_main_v37_apply, lidx38, ridx38]

/-- The bias, broadcast along the rows. -/
theorem v40_at (o : Fin 32) : Read.val_main_v40 (F := Ideal) a6 (ix2 r o) = a6 (ix1 o) := by
  rw [Read.val_main_v40_apply, Read.val_main_v39_apply, bidx40]

/-- The node's own hidden features projected by the right weights. -/
theorem v43_at (o : Fin 32) :
    Read.val_main_v43 (F := Ideal) a0 a1 a2 a3 a4 a7 (ix2 r o)
      = ∑ j : Fin 64, Read.val_main_v22 (F := Ideal) a0 a1 a2 a3 a4 (ix2 r j) * a7 (ix2 o j) := by
  rw [Read.val_main_v43_apply]
  refine Finset.sum_congr rfl fun j _ => ?_
  rw [Read.val_main_v42_apply, lidx43, ridx43]

end Layer2

/-- THE REFERENCE'S RESULT at `(r, o)`: the output layer of the two-layer sum-aggregation convolution, the left projection
    applied to the neighbour sum of the hidden features, over the edge list's two index columns as the program computes
    them (the source column wrapped once when negative, the target column as given). -/
theorem ref_value [Cert.ReferenceIdeal.Facts]
    (a0 : (⟨S100000x32, .f32⟩ : BufTy).Contents (Elt Ideal)) (a1 : (⟨S2x1600000, .i32⟩ : BufTy).Contents (Elt Ideal))
    (a2 : (⟨S64x32, .f32⟩ : BufTy).Contents (Elt Ideal)) (a3 : (⟨S64, .f32⟩ : BufTy).Contents (Elt Ideal))
    (a4 : (⟨S64x32, .f32⟩ : BufTy).Contents (Elt Ideal)) (a5 : (⟨S32x64, .f32⟩ : BufTy).Contents (Elt Ideal))
    (a6 : (⟨S32, .f32⟩ : BufTy).Contents (Elt Ideal)) (a7 : (⟨S32x64, .f32⟩ : BufTy).Contents (Elt Ideal))
    (r : Fin 100000) (o : Fin 32) :
    Cert.ReferenceIdeal.Read.val_main_v44 (F := Ideal) a0 a1 a2 a3 a4 a5 a6 a7 (ix2 r o)
      = Cert.Sage.outAfterOf (Cert.ReferenceIdeal.Read.val_main_v9 (F := Ideal) a1) (Cert.ReferenceIdeal.Read.val_main_v12 (F := Ideal) a1)
          (Cert.Sage.hiddenOf (Cert.ReferenceIdeal.Read.val_main_v9 (F := Ideal) a1) (Cert.ReferenceIdeal.Read.val_main_v12 (F := Ideal) a1) a0 a2 a3 a4)
          a5 a6 a7 r o := by
  rw [Read.val_main_v44_apply, Read.val_main_v41_apply, v38_at, v40_at, v43_at, Ideal.addf_def, Ideal.addf_def]
  simp only [v36_at, v22_at]
  generalize hiddenOf (Read.val_main_v9 (F := Ideal) a1) (Read.val_main_v12 (F := Ideal) a1) a0 a2 a3 a4 = h
  generalize Read.val_main_v9 (F := Ideal) a1 = srcC
  generalize Read.val_main_v12 (F := Ideal) a1 = dstC
  rfl

end Cert.Sage.Ref

end
-- ==== Proof.LibSageSumLaw.lean ====
/-
  The two output layers of the sum-aggregation convolution agree on real inputs, and the hidden layer of real inputs is real.

  On the extended reals a product with an infinity does not distribute over a sum, so the exchange
  `∑ j, (∑ e ∈ edges into r, h (src e) j) · w j = ∑ e ∈ edges into r, ∑ j, h (src e) j · w j` is proved for REAL entries: both
  sides are then coercions of the same real number (a sum of products, regrouped). The rest of the comparison of the two
  layers only reorders a sum of three extended reals, which needs nothing.
-/
import proofs.«133607_j64707977281830_2_alg».proof.Proof.LibSageSum

noncomputable section

open scoped BigOperators

namespace Cert.LibSageSum

/-- An extended real that is (the coercion of) a real number. -/
def IsReal (v : EReal) : Prop := ∃ y : ℝ, v = (y : EReal)

theorem IsReal.zero : IsReal 0 := ⟨0, EReal.coe_zero.symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  rcases max_choice a b with h | h <;> rw [h] <;> assumption

theorem IsReal.ite {P : Prop} [Decidable P] {a b : EReal} (ha : IsReal a) (hb : IsReal b) : IsReal (if P then a else b) := by
  split_ifs <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (P : Prop) [Decidable P] (x : ℝ) : ((if P then x else 0 : ℝ) : EReal) = if P then (x : EReal) else 0 := by
  split_ifs <;> simp

/-- Over the reals: a filtered sum of row projections is the projection of the filtered sum of rows. -/
theorem real_sum_proj {ι κ : Type*} [Fintype ι] [Fintype κ] (P : ι → Prop) [DecidablePred P] (a : ι → κ → ℝ) (w : κ → ℝ) :
    (∑ e, if P e then ∑ j, a e j * w j else 0) = ∑ j, (∑ e, if P e then a e j else 0) * w j := by
  simp only [Finset.sum_mul, ite_mul, zero_mul]
  rw [Finset.sum_comm]
  refine Finset.sum_congr rfl fun e _ => ?_
  split_ifs <;> simp

/-- The same on the extended reals, for real entries. -/
theorem sum_proj {ι κ : Type*} [Fintype ι] [Fintype κ] (P : ι → Prop) [DecidablePred P] (a : ι → κ → EReal) (w : κ → EReal)
    (ha : ∀ e j, IsReal (a e j)) (hw : ∀ j, IsReal (w j)) :
    (∑ e, if P e then ∑ j, a e j * w j else 0) = ∑ j, (∑ e, if P e then a e j else 0) * w j := by
  choose a' ha' using ha
  choose w' hw' using hw
  have hl : (∑ e, if P e then ∑ j, a e j * w j else 0) = ((∑ e, if P e then ∑ j, a' e j * w' j else 0 : ℝ) : EReal) := by
    rw [coe_sum]
    refine Finset.sum_congr rfl fun e _ => ?_
    rw [coe_ite, coe_sum]
    simp only [EReal.coe_mul, ha', hw']
  have hr : (∑ j, (∑ e, if P e then a e j else 0) * w j) = ((∑ j, (∑ e, if P e then a' e j else 0) * w' j : ℝ) : EReal) := by
    rw [coe_sum]
    refine Finset.sum_congr rfl fun j _ => ?_
    rw [EReal.coe_mul, coe_sum]
    simp only [coe_ite, ha', hw']
  rw [hl, hr, real_sum_proj]

variable {N E : ℕ} (src : Fin E → Fin N) (D : Fin E → Fin N → Prop) [∀ e r, Decidable (D e r)]

/-- The neighbour sum of a real table is real. -/
theorem nbr_real {C : ℕ} (X : Fin N → Fin C → EReal) (hX : ∀ r k, IsReal (X r k)) (r : Fin N) (k : Fin C) :
    IsReal (nbr src D X r k) :=
  IsReal.sum _ _ fun e _ => IsReal.ite (hX _ _) IsReal.zero

/-- THE HIDDEN LAYER OF REAL INPUTS IS REAL. -/
theorem hidden_real {d0 d1 : ℕ} (x : Fin N → Fin d0 → EReal) (wl wr : Fin d1 → Fin d0 → EReal) (b : Fin d1 → EReal)
    (hx : ∀ r k, IsReal (x r k)) (hwl : ∀ j k, IsReal (wl j k)) (hwr : ∀ j k, IsReal (wr j k)) (hb : ∀ j, IsReal (b j))
    (r : Fin N) (j : Fin d1) : IsReal (hidden src D x wl wr b r j) :=
  IsReal.max
    (((IsReal.sum _ _ fun k _ => (nbr_real src D x hx r k).mul (hwl j k)).add (hb j)).add
      (IsReal.sum _ _ fun k _ => (hx r k).mul (hwr j k)))
    IsReal.zero

/-- THE TWO OUTPUT LAYERS AGREE when the hidden features and the left weights are real: the neighbour sum of the projected
    rows is the projection of the neighbour sum, and the three summands are only reordered. -/
theorem outBefore_eq_outAfter {d1 d2 : ℕ} (h : Fin N → Fin d1 → EReal) (wl wr : Fin d2 → Fin d1 → EReal) (b : Fin d2 → EReal)
    (hh : ∀ r j, IsReal (h r j)) (hwl : ∀ o j, IsReal (wl o j)) (r : Fin N) (o : Fin d2) :
    outBefore src D h wl wr b r o = outAfter src D h wl wr b r o := by
  unfold outBefore outAfter
  have e : nbr src D (fun r' o' => ∑ j, h r' j * wl o' j) r o = ∑ j, nbr src D h r j * wl o j := by
    unfold nbr
    exact sum_proj (fun e => D e r) (fun e j => h (src e) j) (fun j => wl o j) (fun e j => hh _ _) (fun j => hwl o j)
  rw [e]
  exact add_right_comm _ _ _

end Cert.LibSageSum

end
-- ==== Proof.Bridge.lean ====
/-
  The two programs' results are one function of the arguments, when the float arguments are real.

  The reference's result at `(r, o)` is the output layer with the left projection applied to the neighbour sum of the hidden
  features; the kernel program's is the output layer with the projection applied row by row before the neighbour sum, over the
  same hidden features and the same two index columns (the two programs prepare the columns by the same operations of the edge
  list). For real node features, weights and biases the hidden features are real, and then the two output layers agree.
-/
import proofs.«133607_j64707977281830_2_alg».proof.Proof.KernelValue
import proofs.«133607_j64707977281830_2_alg».proof.Proof.RefValue
import proofs.«133607_j64707977281830_2_alg».proof.Proof.LibSageSumLaw

noncomputable section

namespace Cert.Sage.Bridge

open Idealize.ShloMosaic Idealize.ShloMosaic.ValueIdx

/-- The two programs' source columns are the same operations of the edge list. -/
theorem srcCol_eq (a1 : IVec ⟨2, ![2, 1600000]⟩ 32) :
    Cert.KernelIdeal.Run.srcCol (F := Ideal) a1 = Cert.ReferenceIdeal.Read.val_main_v9 (F := Ideal) a1 := rfl

/-- Likewise the target columns. -/
theorem dstCol_eq (a1 : IVec ⟨2, ![2, 1600000]⟩ 32) :
    Cert.KernelIdeal.Run.dstCol (F := Ideal) a1 = Cert.ReferenceIdeal.Read.val_main_v12 (F := Ideal) a1 := rfl

/-- THE TWO RESULTS AGREE at every index, for real float arguments. -/
theorem result_eq (a0 : (⟨2, ![100000, 32]⟩ : Shape).Idx → EReal) (a1 : IVec ⟨2, ![2, 1600000]⟩ 32)
    (a2 : (⟨2, ![64, 32]⟩ : Shape).Idx → EReal) (a3 : (⟨1, ![64]⟩ : Shape).Idx → EReal)
    (a4 : (⟨2, ![64, 32]⟩ : Shape).Idx → EReal) (a5 : (⟨2, ![32, 64]⟩ : Shape).Idx → EReal)
    (a6 : (⟨1, ![32]⟩ : Shape).Idx → EReal) (a7 : (⟨2, ![32, 64]⟩ : Shape).Idx → EReal)
    (h0 : ∀ i, ∃ y : ℝ, a0 i = (y : EReal)) (h2 : ∀ i, ∃ y : ℝ, a2 i = (y : EReal)) (h3 : ∀ i, ∃ y : ℝ, a3 i = (y : EReal))
    (h4 : ∀ i, ∃ y : ℝ, a4 i = (y : EReal)) (h5 : ∀ i, ∃ y : ℝ, a5 i = (y : EReal)) :
    Cert.ReferenceIdeal.Read.val_main_v44 (F := Ideal) a0 a1 a2 a3 a4 a5 a6 a7
      = Cert.Sage.Ker.outArr a0 a1 a2 a3 a4 a5 a6 a7 := by
  funext i
  obtain ⟨r, o, rfl⟩ : ∃ (r : Fin 100000) (o : Fin 32), i = ix2 r o := ⟨i 0, i 1, eq_ix2 i⟩
  rw [Cert.Sage.Ref.ref_value, Cert.Sage.Ker.outArr_at, srcCol_eq, dstCol_eq]
  generalize Cert.ReferenceIdeal.Read.val_main_v9 (F := Ideal) a1 = srcC
  generalize Cert.ReferenceIdeal.Read.val_main_v12 (F := Ideal) a1 = dstC
  unfold outAfterOf outBeforeOf
  refine (LibSageSum.outBefore_eq_outAfter (srcRow srcC) (lands dstC) (hiddenOf srcC dstC a0 a2 a3 a4) _ _ _
    (fun r j => ?_) (fun o j => h5 (ix2 o j)) r o).symm
  unfold hiddenOf
  exact LibSageSum.hidden_real (srcRow srcC) (lands dstC) _ _ _ _ (fun r k => h0 (ix2 r k)) (fun j k => h2 (ix2 j k))
    (fun j k => h4 (ix2 j k)) (fun j => h3 (ix1 j)) r j

end Cert.Sage.Bridge

end
-- ==== Proof.lean ====
/-
  The certificate of a two-layer sum-aggregation graph convolution (100000 nodes, 1600000 edges, 32 → 64 → 32 features)
  against its jnp reference, on the extended reals.

  Both programs compute `out = (Σ_{edges into r} h[src] · Wloᵀ + b') + h · Wroᵀ` over the hidden features
  `h = max (Σ_{edges into r} x[src] · Wlᵀ + b + x · Wrᵀ) 0`. The kernel program projects the hidden rows by `Wloᵀ` BEFORE summing them
  over the edges (its first kernel emits both `h` and `h · Wloᵀ`), the reference after; it also adds the bias last where the
  reference adds it second. Reordering a sum of three extended reals needs nothing; exchanging the edge sum with the feature sum
  and moving the weight across the edge sum needs the hidden features and the weights to be real, which the precondition
  (every float argument finite) gives. The three frames are the generated ones (the reference's: its generated run with the
  result dropped); the idealization rewrote nothing, so `preserves` is trivial.
-/
import proofs.«133607_j64707977281830_2_alg».proof.Defs
import proofs.«133607_j64707977281830_2_alg».proof.Proof.Gen.Kernel
import proofs.«133607_j64707977281830_2_alg».proof.Proof.Gen.Kernel.Skeleton
import proofs.«133607_j64707977281830_2_alg».proof.Proof.Gen.Kernel.Launch
import proofs.«133607_j64707977281830_2_alg».proof.Proof.Gen.Kernel.Points
import proofs.«133607_j64707977281830_2_alg».proof.Proof.Gen.Kernel.Frame
import proofs.«133607_j64707977281830_2_alg».proof.Proof.Gen.KernelIdeal
import proofs.«133607_j64707977281830_2_alg».proof.Proof.Gen.KernelIdeal.Skeleton
import proofs.«133607_j64707977281830_2_alg».proof.Proof.Gen.KernelIdeal.Launch
import proofs.«133607_j64707977281830_2_alg».proof.Proof.Gen.KernelIdeal.Points
import proofs.«133607_j64707977281830_2_alg».proof.Proof.Gen.KernelIdeal.Frame
import proofs.«133607_j64707977281830_2_alg».proof.Proof.Gen.ReferenceIdeal
import proofs.«133607_j64707977281830_2_alg».proof.Proof.Gen.Pre_finite_inputs
import proofs.«133607_j64707977281830_2_alg».proof.Proof.Gen.ReferenceIdeal.Run
import proofs.«133607_j64707977281830_2_alg».proof.Proof.Gen.ReferenceIdeal.Read
import proofs.«133607_j64707977281830_2_alg».proof.Proof.KernelRun
import proofs.«133607_j64707977281830_2_alg».proof.Proof.KernelValue
import proofs.«133607_j64707977281830_2_alg».proof.Proof.FiniteArgs
import proofs.«133607_j64707977281830_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories agreeing on the arguments, end with the result array at one function of the arguments: the
    kernel program's run names its result array, the reference's run its composed term, and for finite float arguments the
    two are equal index by index. -/
theorem algebraic : Cert.algebraic_KernelIdeal_ReferenceIdeal := by
  intro m ρ m' ρ' hpre hagree
  refine ⟨fun c => Cert.Sage.Ker.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.Ker.out_arr m ρ c), (h c).2⟩) (Cert.KernelIdeal.Run.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v44_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    obtain ⟨h0, h2, h3, h4, h5, -, -⟩ := Cert.SageFinite.real_of_pre _ _ _ _ _ _ _ _ (hpre c)
    exact Cert.Sage.Bridge.result_eq _ _ _ _ _ _ _ _ h0 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
